-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x3 : Shape := ⟨3, ![64, 4096, 3]⟩
abbrev S64x2 : Shape := ⟨2, ![64, 2]⟩
abbrev S_ : Shape := ⟨0, ![]⟩

class Facts : Prop where
  bcast_S_S64x4096x3 : S_.BroadcastsInDim S64x4096x3 (![] : Fin 0 → Fin S64x4096x3.rank)
  reducesTo_S64x4096x3_S_d0_1_2 : S64x4096x3.ReducesTo [0, 1, 2] S_
  h_S_ : 0 < S_.numel
  bcast_S_S64x2 : S_.BroadcastsInDim S64x2 (![] : Fin 0 → Fin S64x2.rank)
  reducesTo_S64x2_S_d0_1 : S64x2.ReducesTo [0, 1] S_

variable [Facts]

def fn {F : FTy → Type} [FloatOps F] (main_arg0 : FVec F S64x4096x3 .f32) (main_arg1 : FVec F S64x2 .f32) (main_arg2 : FVec F S64x2 .f32) : IVec S_ 1 :=
  let main_v0 : FVec F S64x4096x3 .f32 := Host.absf main_arg0
  let main_cst : FVec F S_ .f32 := constant S_ .f32 0x7F800000#32
  let main_v1 : FVec F S64x4096x3 .f32 := broadcastInDim S64x4096x3 ![] bcast_S_S64x4096x3 main_cst
  let main_v2 : IVec S64x4096x3 1 := cmpf .olt main_v0 main_v1
  let main_c : IVec S_ 1 := constantI S_ 1 1#1
  let main_v3 : IVec S_ 1 := (fun x v => Host.reduce IntOp.andi x v reducesTo_S64x4096x3_S_d0_1_2 h_S_) main_v2 main_c
  let main_v4 : FVec F S64x2 .f32 := Host.absf main_arg1
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  main_v13
-- ==== Kernel.lean ====
abbrev S64x4096x3 : Shape := ⟨3, ![64, 4096, 3]⟩
abbrev S64x2 : Shape := ⟨2, ![64, 2]⟩
abbrev S3x64x4096 : Shape := ⟨3, ![3, 64, 4096]⟩
abbrev S64x1 : Shape := ⟨2, ![64, 1]⟩
abbrev S64x64 : Shape := ⟨2, ![64, 64]⟩
abbrev S3x8x4096 : Shape := ⟨3, ![3, 8, 4096]⟩
abbrev S8x64 : Shape := ⟨2, ![8, 64]⟩
abbrev S1x64 : Shape := ⟨2, ![1, 64]⟩
abbrev S1x1x512 : Shape := ⟨3, ![1, 1, 512]⟩
abbrev S512 : Shape := ⟨1, ![512]⟩
abbrev S1x512 : Shape := ⟨2, ![1, 512]⟩
abbrev S64x512 : Shape := ⟨2, ![64, 512]⟩
abbrev S64 : Shape := ⟨1, ![64]⟩

abbrev nBuf : Space → Nat
  | .hbm => 9
  | .vmem => 8
  | .smem => 0
  | _ => 0

abbrev bufTy : (tb : Table) → Fin (tcTables nBuf tb) → BufTy
  | .hbm, ⟨0, _⟩ => ⟨S64x4096x3, .f32⟩
  | .hbm, ⟨1, _⟩ => ⟨S64x2, .f32⟩
  | .hbm, ⟨2, _⟩ => ⟨S64x2, .f32⟩
  | .hbm, ⟨3, _⟩ => ⟨S3x64x4096, .f32⟩
  | .hbm, ⟨4, _⟩ => ⟨S64x1, .f32⟩
  | .hbm, ⟨5, _⟩ => ⟨S64x1, .f32⟩
  | .hbm, ⟨6, _⟩ => ⟨S64x1, .f32⟩
  | .hbm, ⟨7, _⟩ => ⟨S64x1, .f32⟩
  | .hbm, ⟨8, _⟩ => ⟨S64x64, .f32⟩
  | .local _ .vmem, ⟨0, _⟩ => ⟨S3x8x4096, .f32⟩
  | .local _ .vmem, ⟨1, _⟩ => ⟨S3x8x4096, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S8x64, .f32⟩
  | .local _ .vmem, ⟨7, _⟩ => ⟨S8x64, .f32⟩
  | _, _ => ⟨S64x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v40 : BitVec 32 := Scalar.muli arg7 c512_i32
  v40
def k0_off1 (k0_t1 : Fin k0_t1_loop.trips) : Fin 3 → Nat :=
  let c0_49 : Index := 0#32
  let c0_50 : Index := 0#32
  let c0_i32 : BitVec 32 := 0#32
  let c1_i32 : BitVec 32 := 1#32
  let arg7 : BitVec 32 := Scf.iv c0_i32 c1_i32 k0_t1
  let c512_i32 : BitVec 32 := 512#32
  let v40 : BitVec 32 := Scalar.muli arg7 c512_i32
  let v41 : BitVec 32 := v40
  let v42 : Index := Scalar.indexCast v41
  ![0, 0, v42.toNat]
def k0_off2 (k0_t1 : Fin k0_t1_loop.trips) : Fin 3 → Nat :=
  let c1 : Index := 1#32
  let c0_51 : Index := 0#32
  let c0_i32 : BitVec 32 := 0#32
  let c1_i32 : BitVec 32 := 1#32
  let arg7 : BitVec 32 := Scf.iv c0_i32 c1_i32 k0_t1
  let c512_i32 : BitVec 32 := 512#32
  let v40 : BitVec 32 := Scalar.muli arg7 c512_i32
  let v41 : BitVec 32 := v40
  let v45 : Index := Scalar.indexCast v41
  ![1, 0, v45.toNat]
def k0_off3 (k0_t1 : Fin k0_t1_loop.trips) : Fin 3 → Nat :=
  let c2 : Index := 2#32
  let c0_52 : Index := 0#32
  let c0_i32 : BitVec 32 := 0#32
  let c1_i32 : BitVec 32 := 1#32
  let arg7 : BitVec 32 := Scf.iv c0_i32 c1_i32 k0_t1
  let c512_i32 : BitVec 32 := 512#32
  let v40 : BitVec 32 := Scalar.muli arg7 c512_i32
  let v41 : BitVec 32 := v40
  let v48 : Index := Scalar.indexCast v41
  ![2, 0, v48.toNat]
@[reducible] def k0_t2_loop : Scf.Loop 32 :=
  let c0_i32_13 : BitVec 32 := 0#32
  let c8_i32_14 : BitVec 32 := 8#32
  let v18 : BitVec 32 := Scalar.addi c0_i32_13 c8_i32_14
  let c1_i32_15 : BitVec 32 := 1#32
  ⟨c0_i32_13, v18, c1_i32_15⟩
def k0_mult2 (k0_t2 : Fin k0_t2_loop.trips) : BitVec 32 :=
  let c0_i32_13 : BitVec 32 := 0#32
  let c1_i32_15 : BitVec 32 := 1#32
  let arg7 : BitVec 32 := Scf.iv c0_i32_13 c1_i32_15 k0_t2
  let c512_i32 : BitVec 32 := 512#32
  let v40 : BitVec 32 := Scalar.muli arg7 c512_i32
  v40
def k0_off4 (k0_t2 : Fin k0_t2_loop.trips) : Fin 3 → Nat :=
  let c0_49 : Index := 0#32
  let c1 : Index := 1#32
  let c0_i32_13 : BitVec 32 := 0#32
  let c1_i32_15 : BitVec 32 := 1#32
  let arg7 : BitVec 32 := Scf.iv c0_i32_13 c1_i32_15 k0_t2
  let c512_i32 : BitVec 32 := 512#32
  let v40 : BitVec 32 := Scalar.muli arg7 c512_i32
  let v41 : BitVec 32 := v40
  let v42 : Index := Scalar.indexCast v41
  ![0, 1, v42.toNat]
def k0_off5 (k0_t2 : Fin k0_t2_loop.trips) : Fin 3 → Nat :=
  let c1_50 : Index := 1#32
  let c1_51 : Index := 1#32
  let c0_i32_13 : BitVec 32 := 0#32
  let c1_i32_15 : BitVec 32 := 1#32
  let arg7 : BitVec 32 := Scf.iv c0_i32_13 c1_i32_15 k0_t2
  let c512_i32 : BitVec 32 := 512#32
  let v40 : BitVec 32 := Scalar.muli arg7 c512_i32
  let v41 : BitVec 32 := v40
  let v45 : Index := Scalar.indexCast v41
  ![1, 1, v45.toNat]
def k0_off6 (k0_t2 : Fin k0_t2_loop.trips) : Fin 3 → Nat :=
  let c2 : Index := 2#32
  let c1_52 : Index := 1#32
  let c0_i32_13 : BitVec 32 := 0#32
  let c1_i32_15 : BitVec 32 := 1#32
  let arg7 : BitVec 32 := Scf.iv c0_i32_13 c1_i32_15 k0_t2
  let c512_i32 : BitVec 32 := 512#32
  let v40 : BitVec 32 := Scalar.muli arg7 c512_i32
  let v41 : BitVec 32 := v40
  let v48 : Index := Scalar.indexCast v41
  ![2, 1, v48.toNat]
@[reducible] def k0_t3_loop : Scf.Loop 32 :=
  let c0_i32_18 : BitVec 32 := 0#32
  let c8_i32_19 : BitVec 32 := 8#32
  let v21 : BitVec 32 := Scalar.addi c0_i32_18 c8_i32_19
  let c1_i32_20 : BitVec 32 := 1#32
  ⟨c0_i32_18, v21, c1_i32_20⟩
def k0_mult3 (k0_t3 : Fin k0_t3_loop.trips) : BitVec 32 :=
  let c0_i32_18 : BitVec 32 := 0#32
  let c1_i32_20 : BitVec 32 := 1#32
  let arg7 : BitVec 32 := Scf.iv c0_i32_18 c1_i32_20 k0_t3
  let c512_i32 : BitVec 32 := 512#32
  let v40 : BitVec 32 := Scalar.muli arg7 c512_i32
  v40
def k0_off7 (k0_t3 : Fin k0_t3_loop.trips) : Fin 3 → Nat :=
  let c0_49 : Index := 0#32
  let c2 : Index := 2#32
  let c0_i32_18 : BitVec 32 := 0#32
  let c1_i32_20 : BitVec 32 := 1#32
  let arg7 : BitVec 32 := Scf.iv c0_i32_18 c1_i32_20 k0_t3
  let c512_i32 : BitVec 32 := 512#32
  let v40 : BitVec 32 := Scalar.muli arg7 c512_i32
  let v41 : BitVec 32 := v40
  let v42 : Index := Scalar.indexCast v41
  ![0, 2, v42.toNat]
def k0_off8 (k0_t3 : Fin k0_t3_loop.trips) : Fin 3 → Nat :=
  let c1 : Index := 1#32
  let c2_50 : Index := 2#32
  let c0_i32_18 : BitVec 32 := 0#32
  let c1_i32_20 : BitVec 32 := 1#32
  let arg7 : BitVec 32 := Scf.iv c0_i32_18 c1_i32_20 k0_t3
  let c512_i32 : BitVec 32 := 512#32
  let v40 : BitVec 32 := Scalar.muli arg7 c512_i32
  let v41 : BitVec 32 := v40
  let v45 : Index := Scalar.indexCast v41
  ![1, 2, v45.toNat]
def k0_off9 (k0_t3 : Fin k0_t3_loop.trips) : Fin 3 → Nat :=
  let c2_51 : Index := 2#32
  let c2_52 : Index := 2#32
  let c0_i32_18 : BitVec 32 := 0#32
  let c1_i32_20 : BitVec 32 := 1#32
  let arg7 : BitVec 32 := Scf.iv c0_i32_18 c1_i32_20 k0_t3
  let c512_i32 : BitVec 32 := 512#32
  let v40 : BitVec 32 := Scalar.muli arg7 c512_i32
  let v41 : BitVec 32 := v40
  let v48 : Index := Scalar.indexCast v41
  ![2, 2, v48.toNat]
@[reducible] def k0_t4_loop : Scf.Loop 32 :=
  let c0_i32_23 : BitVec 32 := 0#32
  let c8_i32_24 : BitVec 32 := 8#32
  let v24 : BitVec 32 := Scalar.addi c0_i32_23 c8_i32_24
  let c1_i32_25 : BitVec 32 := 1#32
  ⟨c0_i32_23, v24, c1_i32_25⟩
def k0_mult4 (k0_t4 : Fin k0_t4_loop.trips) : BitVec 32 :=
  let c0_i32_23 : BitVec 32 := 0#32
  let c1_i32_25 : BitVec 32 := 1#32
  let arg7 : BitVec 32 := Scf.iv c0_i32_23 c1_i32_25 k0_t4
  let c512_i32 : BitVec 32 := 512#32
  let v40 : BitVec 32 := Scalar.muli arg7 c512_i32
  v40
def k0_off10 (k0_t4 : Fin k0_t4_loop.trips) : Fin 3 → Nat :=
  let c0_49 : Index := 0#32
  let c3 : Index := 3#32
  let c0_i32_23 : BitVec 32 := 0#32
  let c1_i32_25 : BitVec 32 := 1#32
  let arg7 : BitVec 32 := Scf.iv c0_i32_23 c1_i32_25 k0_t4
  let c512_i32 : BitVec 32 := 512#32
  let v40 : BitVec 32 := Scalar.muli arg7 c512_i32
  let v41 : BitVec 32 := v40
  let v42 : Index := Scalar.indexCast v41
  ![0, 3, v42.toNat]
def k0_off11 (k0_t4 : Fin k0_t4_loop.trips) : Fin 3 → Nat :=
  let c1 : Index := 1#32
  let c3_50 : Index := 3#32
  let c0_i32_23 : BitVec 32 := 0#32
  let c1_i32_25 : BitVec 32 := 1#32
  let arg7 : BitVec 32 := Scf.iv c0_i32_23 c1_i32_25 k0_t4
  let c512_i32 : BitVec 32 := 512#32
  let v40 : BitVec 32 := Scalar.muli arg7 c512_i32
  let v41 : BitVec 32 := v40
  let v45 : Index := Scalar.indexCast v41
  ![1, 3, v45.toNat]
def k0_off12 (k0_t4 : Fin k0_t4_loop.trips) : Fin 3 → Nat :=
  let c2 : Index := 2#32
  let c3_51 : Index := 3#32
  let c0_i32_23 : BitVec 32 := 0#32
  let c1_i32_25 : BitVec 32 := 1#32
  let arg7 : BitVec 32 := Scf.iv c0_i32_23 c1_i32_25 k0_t4
  let c512_i32 : BitVec 32 := 512#32
  let v40 : BitVec 32 := Scalar.muli arg7 c512_i32
  let v41 : BitVec 32 := v40
  let v48 : Index := Scalar.indexCast v41
  ![2, 3, v48.toNat]
@[reducible] def k0_t5_loop : Scf.Loop 32 :=
  let c0_i32_28 : BitVec 32 := 0#32
  let c8_i32_29 : BitVec 32 := 8#32
  let v27 : BitVec 32 := Scalar.addi c0_i32_28 c8_i32_29
  let c1_i32_30 : BitVec 32 := 1#32
  ⟨c0_i32_28, v27, c1_i32_30⟩
def k0_mult5 (k0_t5 : Fin k0_t5_loop.trips) : BitVec 32 :=
  let c0_i32_28 : BitVec 32 := 0#32
  let c1_i32_30 : BitVec 32 := 1#32
  let arg7 : BitVec 32 := Scf.iv c0_i32_28 c1_i32_30 k0_t5
  let c512_i32 : BitVec 32 := 512#32
  let v40 : BitVec 32 := Scalar.muli arg7 c512_i32
  v40
def k0_off13 (k0_t5 : Fin k0_t5_loop.trips) : Fin 3 → Nat :=
  let c0_49 : Index := 0#32
  let c4 : Index := 4#32
  let c0_i32_28 : BitVec 32 := 0#32
  let c1_i32_30 : BitVec 32 := 1#32
  let arg7 : BitVec 32 := Scf.iv c0_i32_28 c1_i32_30 k0_t5
  let c512_i32 : BitVec 32 := 512#32
  let v40 : BitVec 32 := Scalar.muli arg7 c512_i32
  let v41 : BitVec 32 := v40
  let v42 : Index := Scalar.indexCast v41
  ![0, 4, v42.toNat]
def k0_off14 (k0_t5 : Fin k0_t5_loop.trips) : Fin 3 → Nat :=
  let c1 : Index := 1#32
  let c4_50 : Index := 4#32
  let c0_i32_28 : BitVec 32 := 0#32
  let c1_i32_30 : BitVec 32 := 1#32
  let arg7 : BitVec 32 := Scf.iv c0_i32_28 c1_i32_30 k0_t5
  let c512_i32 : BitVec 32 := 512#32
  let v40 : BitVec 32 := Scalar.muli arg7 c512_i32
  let v41 : BitVec 32 := v40
  let v45 : Index := Scalar.indexCast v41
  ![1, 4, v45.toNat]
def k0_off15 (k0_t5 : Fin k0_t5_loop.trips) : Fin 3 → Nat :=
  let c2 : Index := 2#32
  let c4_51 : Index := 4#32
  let c0_i32_28 : BitVec 32 := 0#32
  let c1_i32_30 : BitVec 32 := 1#32
  let arg7 : BitVec 32 := Scf.iv c0_i32_28 c1_i32_30 k0_t5
  let c512_i32 : BitVec 32 := 512#32
  let v40 : BitVec 32 := Scalar.muli arg7 c512_i32
  let v41 : BitVec 32 := v40
  let v48 : Index := Scalar.indexCast v41
  ![2, 4, v48.toNat]
@[reducible] def k0_t6_loop : Scf.Loop 32 :=
  let c0_i32_33 : BitVec 32 := 0#32
  let c8_i32_34 : BitVec 32 := 8#32
  let v30 : BitVec 32 := Scalar.addi c0_i32_33 c8_i32_34
  let c1_i32_35 : BitVec 32 := 1#32
  ⟨c0_i32_33, v30, c1_i32_35⟩
def k0_mult6 (k0_t6 : Fin k0_t6_loop.trips) : BitVec 32 :=
  let c0_i32_33 : BitVec 32 := 0#32
  let c1_i32_35 : BitVec 32 := 1#32
  let arg7 : BitVec 32 := Scf.iv c0_i32_33 c1_i32_35 k0_t6
  let c512_i32 : BitVec 32 := 512#32
  let v40 : BitVec 32 := Scalar.muli arg7 c512_i32
  v40
def k0_off16 (k0_t6 : Fin k0_t6_loop.trips) : Fin 3 → Nat :=
  let c0_49 : Index := 0#32
  let c5 : Index := 5#32
  let c0_i32_33 : BitVec 32 := 0#32
  let c1_i32_35 : BitVec 32 := 1#32
  let arg7 : BitVec 32 := Scf.iv c0_i32_33 c1_i32_35 k0_t6
  let c512_i32 : BitVec 32 := 512#32
  let v40 : BitVec 32 := Scalar.muli arg7 c512_i32
  let v41 : BitVec 32 := v40
  let v42 : Index := Scalar.indexCast v41
  ![0, 5, v42.toNat]
def k0_off17 (k0_t6 : Fin k0_t6_loop.trips) : Fin 3 → Nat :=
  let c1 : Index := 1#32
  let c5_50 : Index := 5#32
  let c0_i32_33 : BitVec 32 := 0#32
  let c1_i32_35 : BitVec 32 := 1#32
  let arg7 : BitVec 32 := Scf.iv c0_i32_33 c1_i32_35 k0_t6
  let c512_i32 : BitVec 32 := 512#32
  let v40 : BitVec 32 := Scalar.muli arg7 c512_i32
  let v41 : BitVec 32 := v40
  let v45 : Index := Scalar.indexCast v41
  ![1, 5, v45.toNat]
def k0_off18 (k0_t6 : Fin k0_t6_loop.trips) : Fin 3 → Nat :=
  let c2 : Index := 2#32
  let c5_51 : Index := 5#32
  let c0_i32_33 : BitVec 32 := 0#32
  let c1_i32_35 : BitVec 32 := 1#32
  let arg7 : BitVec 32 := Scf.iv c0_i32_33 c1_i32_35 k0_t6
  let c512_i32 : BitVec 32 := 512#32
  let v40 : BitVec 32 := Scalar.muli arg7 c512_i32
  let v41 : BitVec 32 := v40
  let v48 : Index := Scalar.indexCast v41
  ![2, 5, v48.toNat]
@[reducible] def k0_t7_loop : Scf.Loop 32 :=
  let c0_i32_38 : BitVec 32 := 0#32
  let c8_i32_39 : BitVec 32 := 8#32
  let v33 : BitVec 32 := Scalar.addi c0_i32_38 c8_i32_39
  let c1_i32_40 : BitVec 32 := 1#32
  ⟨c0_i32_38, v33, c1_i32_40⟩
def k0_mult7 (k0_t7 : Fin k0_t7_loop.trips) : BitVec 32 :=
  let c0_i32_38 : BitVec 32 := 0#32
  let c1_i32_40 : BitVec 32 := 1#32
  let arg7 : BitVec 32 := Scf.iv c0_i32_38 c1_i32_40 k0_t7
  let c512_i32 : BitVec 32 := 512#32
  let v40 : BitVec 32 := Scalar.muli arg7 c512_i32
  v40
def k0_off19 (k0_t7 : Fin k0_t7_loop.trips) : Fin 3 → Nat :=
  let c0_49 : Index := 0#32
  let c6 : Index := 6#32
  let c0_i32_38 : BitVec 32 := 0#32
  let c1_i32_40 : BitVec 32 := 1#32
  let arg7 : BitVec 32 := Scf.iv c0_i32_38 c1_i32_40 k0_t7
  let c512_i32 : BitVec 32 := 512#32
  let v40 : BitVec 32 := Scalar.muli arg7 c512_i32
  let v41 : BitVec 32 := v40
  let v42 : Index := Scalar.indexCast v41
  ![0, 6, v42.toNat]
def k0_off20 (k0_t7 : Fin k0_t7_loop.trips) : Fin 3 → Nat :=
  let c1 : Index := 1#32
  let c6_50 : Index := 6#32
  let c0_i32_38 : BitVec 32 := 0#32
  let c1_i32_40 : BitVec 32 := 1#32
  let arg7 : BitVec 32 := Scf.iv c0_i32_38 c1_i32_40 k0_t7
  let c512_i32 : BitVec 32 := 512#32
  let v40 : BitVec 32 := Scalar.muli arg7 c512_i32
  let v41 : BitVec 32 := v40
  let v45 : Index := Scalar.indexCast v41
  ![1, 6, v45.toNat]
def k0_off21 (k0_t7 : Fin k0_t7_loop.trips) : Fin 3 → Nat :=
  let c2 : Index := 2#32
  let c6_51 : Index := 6#32
  let c0_i32_38 : BitVec 32 := 0#32
  let c1_i32_40 : BitVec 32 := 1#32
  let arg7 : BitVec 32 := Scf.iv c0_i32_38 c1_i32_40 k0_t7
  let c512_i32 : BitVec 32 := 512#32
  let v40 : BitVec 32 := Scalar.muli arg7 c512_i32
  let v41 : BitVec 32 := v40
  let v48 : Index := Scalar.indexCast v41
  ![2, 6, v48.toNat]
@[reducible] def k0_t8_loop : Scf.Loop 32 :=
  let c0_i32_43 : BitVec 32 := 0#32
  let c8_i32_44 : BitVec 32 := 8#32
  let v36 : BitVec 32 := Scalar.addi c0_i32_43 c8_i32_44
  let c1_i32_45 : BitVec 32 := 1#32
  ⟨c0_i32_43, v36, c1_i32_45⟩
def k0_mult8 (k0_t8 : Fin k0_t8_loop.trips) : BitVec 32 :=
  let c0_i32_43 : BitVec 32 := 0#32
  let c1_i32_45 : BitVec 32 := 1#32
  let arg7 : BitVec 32 := Scf.iv c0_i32_43 c1_i32_45 k0_t8
  let c512_i32 : BitVec 32 := 512#32
  let v40 : BitVec 32 := Scalar.muli arg7 c512_i32
  v40
def k0_off22 (k0_t8 : Fin k0_t8_loop.trips) : Fin 3 → Nat :=
  let c0_49 : Index := 0#32
  let c7 : Index := 7#32
  let c0_i32_43 : BitVec 32 := 0#32
  let c1_i32_45 : BitVec 32 := 1#32
  let arg7 : BitVec 32 := Scf.iv c0_i32_43 c1_i32_45 k0_t8
  let c512_i32 : BitVec 32 := 512#32
  let v40 : BitVec 32 := Scalar.muli arg7 c512_i32
  let v41 : BitVec 32 := v40
  let v42 : Index := Scalar.indexCast v41
  ![0, 7, v42.toNat]
def k0_off23 (k0_t8 : Fin k0_t8_loop.trips) : Fin 3 → Nat :=
  let c1 : Index := 1#32
  let c7_50 : Index := 7#32
  let c0_i32_43 : BitVec 32 := 0#32
  let c1_i32_45 : BitVec 32 := 1#32
  let arg7 : BitVec 32 := Scf.iv c0_i32_43 c1_i32_45 k0_t8
  let c512_i32 : BitVec 32 := 512#32
  let v40 : BitVec 32 := Scalar.muli arg7 c512_i32
  let v41 : BitVec 32 := v40
  let v45 : Index := Scalar.indexCast v41
  ![1, 7, v45.toNat]
def k0_off24 (k0_t8 : Fin k0_t8_loop.trips) : Fin 3 → Nat :=
  let c2 : Index := 2#32
  let c7_51 : Index := 7#32
  let c0_i32_43 : BitVec 32 := 0#32
  let c1_i32_45 : BitVec 32 := 1#32
  let arg7 : BitVec 32 := Scf.iv c0_i32_43 c1_i32_45 k0_t8
  let c512_i32 : BitVec 32 := 512#32
  let v40 : BitVec 32 := Scalar.muli arg7 c512_i32
  let v41 : BitVec 32 := v40
  let v48 : Index := Scalar.indexCast v41
  ![2, 7, v48.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x4096x3_S3x64x4096_2_0_1 : S64x4096x3.Transposes [2, 0, 1] S3x64x4096
  slices_S64x2_S64x1_0_0 : S64x2.Slices ![0, 0] S64x1
  slices_S64x2_S64x1_0_1 : S64x2.Slices ![0, 1] S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  h_S1x1x512 : 0 < S1x1x512.numel
  shapeCasts_S1x1x512_S512 : S1x1x512.ShapeCasts S512
  shapeCasts_S512_S1x512 : S512.ShapeCasts S1x512
  broadcasts_S64x1_S64x512 : S64x1.Broadcasts S64x512
  broadcasts_S1x512_S64x512 : S1x512.Broadcasts S64x512
  reduces_S64x512_S64 : S64x512.Reduces [1] S64
  shapeCasts_S64_S1x64 : S64.ShapeCasts S1x64
  concatenates_S1x64_S1x64_S1x64_S1x64_S1x64_S1x64_S1x64_S1x64_S8x64_d0 : Shape.Concatenates [S1x64, S1x64, S1x64, S1x64, S1x64, S1x64, S1x64, S1x64] S8x64 0
  inb_S8x64_S8x64_0_0 : ∀ a, (![0, 0] : Fin 2 → Nat) a + S8x64.size a ≤ S8x64.size a
  h_S8x64 : 0 < S8x64.numel
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x1x512.size a ≤ S3x8x4096.size a
  k0_off2_inb : ∀ k0_t1 : Fin k0_t1_loop.trips, ∀ a, (k0_off2 k0_t1) a + S1x1x512.size a ≤ S3x8x4096.size a
  k0_off3_inb : ∀ k0_t1 : Fin k0_t1_loop.trips, ∀ a, (k0_off3 k0_t1) a + S1x1x512.size a ≤ S3x8x4096.size a
  k0_t2_ok : k0_t2_loop.OK
  k0_mult2_dvd : ∀ k0_t2 : Fin k0_t2_loop.trips, 512 ∣ (k0_mult2 k0_t2).toNat
  k0_off4_inb : ∀ k0_t2 : Fin k0_t2_loop.trips, ∀ a, (k0_off4 k0_t2) a + S1x1x512.size a ≤ S3x8x4096.size a
  k0_off5_inb : ∀ k0_t2 : Fin k0_t2_loop.trips, ∀ a, (k0_off5 k0_t2) a + S1x1x512.size a ≤ S3x8x4096.size a
  k0_off6_inb : ∀ k0_t2 : Fin k0_t2_loop.trips, ∀ a, (k0_off6 k0_t2) a + S1x1x512.size a ≤ S3x8x4096.size a
  k0_t3_ok : k0_t3_loop.OK
  k0_mult3_dvd : ∀ k0_t3 : Fin k0_t3_loop.trips, 512 ∣ (k0_mult3 k0_t3).toNat
  k0_off7_inb : ∀ k0_t3 : Fin k0_t3_loop.trips, ∀ a, (k0_off7 k0_t3) a + S1x1x512.size a ≤ S3x8x4096.size a
  k0_off8_inb : ∀ k0_t3 : Fin k0_t3_loop.trips, ∀ a, (k0_off8 k0_t3) a + S1x1x512.size a ≤ S3x8x4096.size a
  k0_off9_inb : ∀ k0_t3 : Fin k0_t3_loop.trips, ∀ a, (k0_off9 k0_t3) a + S1x1x512.size a ≤ S3x8x4096.size a
  k0_t4_ok : k0_t4_loop.OK
  k0_mult4_dvd : ∀ k0_t4 : Fin k0_t4_loop.trips, 512 ∣ (k0_mult4 k0_t4).toNat
  k0_off10_inb : ∀ k0_t4 : Fin k0_t4_loop.trips, ∀ a, (k0_off10 k0_t4) a + S1x1x512.size a ≤ S3x8x4096.size a
  k0_off11_inb : ∀ k0_t4 : Fin k0_t4_loop.trips, ∀ a, (k0_off11 k0_t4) a + S1x1x512.size a ≤ S3x8x4096.size a
  k0_off12_inb : ∀ k0_t4 : Fin k0_t4_loop.trips, ∀ a, (k0_off12 k0_t4) a + S1x1x512.size a ≤ S3x8x4096.size a
  k0_t5_ok : k0_t5_loop.OK
  k0_mult5_dvd : ∀ k0_t5 : Fin k0_t5_loop.trips, 512 ∣ (k0_mult5 k0_t5).toNat
  k0_off13_inb : ∀ k0_t5 : Fin k0_t5_loop.trips, ∀ a, (k0_off13 k0_t5) a + S1x1x512.size a ≤ S3x8x4096.size a
  k0_off14_inb : ∀ k0_t5 : Fin k0_t5_loop.trips, ∀ a, (k0_off14 k0_t5) a + S1x1x512.size a ≤ S3x8x4096.size a
  k0_off15_inb : ∀ k0_t5 : Fin k0_t5_loop.trips, ∀ a, (k0_off15 k0_t5) a + S1x1x512.size a ≤ S3x8x4096.size a
  k0_t6_ok : k0_t6_loop.OK
  k0_mult6_dvd : ∀ k0_t6 : Fin k0_t6_loop.trips, 512 ∣ (k0_mult6 k0_t6).toNat
  k0_off16_inb : ∀ k0_t6 : Fin k0_t6_loop.trips, ∀ a, (k0_off16 k0_t6) a + S1x1x512.size a ≤ S3x8x4096.size a
  k0_off17_inb : ∀ k0_t6 : Fin k0_t6_loop.trips, ∀ a, (k0_off17 k0_t6) a + S1x1x512.size a ≤ S3x8x4096.size a
  k0_off18_inb : ∀ k0_t6 : Fin k0_t6_loop.trips, ∀ a, (k0_off18 k0_t6) a + S1x1x512.size a ≤ S3x8x4096.size a
  k0_t7_ok : k0_t7_loop.OK
  k0_mult7_dvd : ∀ k0_t7 : Fin k0_t7_loop.trips, 512 ∣ (k0_mult7 k0_t7).toNat
  k0_off19_inb : ∀ k0_t7 : Fin k0_t7_loop.trips, ∀ a, (k0_off19 k0_t7) a + S1x1x512.size a ≤ S3x8x4096.size a
  k0_off20_inb : ∀ k0_t7 : Fin k0_t7_loop.trips, ∀ a, (k0_off20 k0_t7) a + S1x1x512.size a ≤ S3x8x4096.size a
  k0_off21_inb : ∀ k0_t7 : Fin k0_t7_loop.trips, ∀ a, (k0_off21 k0_t7) a + S1x1x512.size a ≤ S3x8x4096.size a
  k0_t8_ok : k0_t8_loop.OK
  k0_mult8_dvd : ∀ k0_t8 : Fin k0_t8_loop.trips, 512 ∣ (k0_mult8 k0_t8).toNat
  k0_off22_inb : ∀ k0_t8 : Fin k0_t8_loop.trips, ∀ a, (k0_off22 k0_t8) a + S1x1x512.size a ≤ S3x8x4096.size a
  k0_off23_inb : ∀ k0_t8 : Fin k0_t8_loop.trips, ∀ a, (k0_off23 k0_t8) a + S1x1x512.size a ≤ S3x8x4096.size a
  k0_off24_inb : ∀ k0_t8 : Fin k0_t8_loop.trips, ∀ a, (k0_off24 k0_t8) a + S1x1x512.size a ≤ S3x8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x4096.size a ≤ S3x64x4096.size a
  hwx0_0 : ∀ i : grid0.Coords, EltTy.bits .f32 = 32 ∨ (Rect.block (s := S3x64x4096) S3x8x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S64x64.size a
  hwx0_5 : ∀ i : grid0.Coords, EltTy.bits .f32 = 32 ∨ (Rect.block (s := S64x64) S8x64.size (cc0_transform_5 i) (hinb0_5 i)).WholeWords (EltTy.packing .f32)

variable [Facts₀]

abbrev win0_0 : Pipeline.Window sig grid0 :=
  Pipeline.Window.ofSpec (Memref.whole main_v0) S3x8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096x3 : Shape := ⟨3, ![64, 4096, 3]⟩
abbrev S64x2 : Shape := ⟨2, ![64, 2]⟩
abbrev S64x4096x2 : Shape := ⟨3, ![64, 4096, 2]⟩
abbrev S64x4096x1 : Shape := ⟨3, ![64, 4096, 1]⟩
abbrev S64x4096 : Shape := ⟨2, ![64, 4096]⟩
abbrev S1x64x1x2 : Shape := ⟨4, ![1, 64, 1, 2]⟩
abbrev S64x1x4096x2 : Shape := ⟨4, ![64, 1, 4096, 2]⟩
abbrev S64x64x4096x2 : Shape := ⟨4, ![64, 64, 4096, 2]⟩
abbrev S_ : Shape := ⟨0, ![]⟩
abbrev S64x64x4096 : Shape := ⟨3, ![64, 64, 4096]⟩
abbrev S64x1x4096 : Shape := ⟨3, ![64, 1, 4096]⟩
abbrev S64x64 : Shape := ⟨2, ![64, 64]⟩

abbrev nBuf : Space → Nat
  | .hbm => 35
  | .vmem => 0
  | .smem => 0
  | _ => 0

abbrev bufTy : (tb : Table) → Fin (tcTables nBuf tb) → BufTy
  | .hbm, ⟨0, _⟩ => ⟨S64x4096x3, .f32⟩
  | .hbm, ⟨1, _⟩ => ⟨S64x2, .f32⟩
  | .hbm, ⟨2, _⟩ => ⟨S64x2, .f32⟩
  | .hbm, ⟨3, _⟩ => ⟨S64x4096x2, .f32⟩
  | .hbm, ⟨4, _⟩ => ⟨S64x4096x1, .f32⟩
  | .hbm, ⟨5, _⟩ => ⟨S64x4096, .f32⟩
  | .hbm, ⟨6, _⟩ => ⟨S64x2, .f32⟩
  | .hbm, ⟨7, _⟩ => ⟨S1x64x1x2, .f32⟩
  | .hbm, ⟨8, _⟩ => ⟨S64x1x4096x2, .f32⟩
  | .hbm, ⟨9, _⟩ => ⟨S64x64x4096x2, .f32⟩
  | .hbm, ⟨10, _⟩ => ⟨S64x64x4096x2, .f32⟩
  | .hbm, ⟨11, _⟩ => ⟨S64x64x4096x2, .f32⟩
  | .hbm, ⟨12, _⟩ => ⟨S64x64x4096x2, .f32⟩
  | .hbm, ⟨13, _⟩ => ⟨S1x64x1x2, .f32⟩
  | .hbm, ⟨14, _⟩ => ⟨S64x64x4096x2, .f32⟩
  | .hbm, ⟨15, _⟩ => ⟨S64x64x4096x2, .f32⟩
  | .hbm, ⟨16, _⟩ => ⟨S64x64x4096x2, .i1⟩
  | .hbm, ⟨17, _⟩ => ⟨S_, .f32⟩
  | .hbm, ⟨18, _⟩ => ⟨S64x64x4096x2, .f32⟩
  | .hbm, ⟨19, _⟩ => ⟨S64x64x4096x2, .f32⟩
  | .hbm, ⟨20, _⟩ => ⟨S_, .f32⟩
  | .hbm, ⟨21, _⟩ => ⟨S64x64x4096, .f32⟩
  | .hbm, ⟨22, _⟩ => ⟨S64x4096, .i1⟩
  | .hbm, ⟨23, _⟩ => ⟨S64x4096, .f32⟩
  | .hbm, ⟨24, _⟩ => ⟨S_, .f32⟩
  | .hbm, ⟨25, _⟩ => ⟨S_, .f32⟩
  | .hbm, ⟨26, _⟩ => ⟨S64x4096, .f32⟩
  | .hbm, ⟨27, _⟩ => ⟨S64x4096, .f32⟩
  | .hbm, ⟨28, _⟩ => ⟨S64x1x4096, .f32⟩
  | .hbm, ⟨29, _⟩ => ⟨S64x64x4096, .f32⟩
  | .hbm, ⟨30, _⟩ => ⟨S64x64x4096, .f32⟩
  | .hbm, ⟨31, _⟩ => ⟨S64x64x4096, .f32⟩
  | .hbm, ⟨32, _⟩ => ⟨S64x64x4096, .f32⟩
  | .hbm, ⟨33, _⟩ => ⟨S_, .f32⟩
  | .hbm, ⟨34, _⟩ => ⟨S64x64, .f32⟩
  | _, _ => ⟨S64x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_cst : Ref sig .tc := ⟨.hbm, 17, rfl⟩
abbrev main_call0_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  slices_S64x4096x3_S64x4096x2_0_0_0 : S64x4096x3.Slices ![0, 0, 0] S64x4096x2
  slices_S64x4096x3_S64x4096x1_0_0_2 : S64x4096x3.Slices ![0, 0, 2] S64x4096x1
  shapeCasts_S64x4096x1_S64x4096 : S64x4096x1.ShapeCasts S64x4096
  bcast_S64x2_S1x64x1x2_1_3 : S64x2.BroadcastsInDim S1x64x1x2 (![1, 3] : Fin 2 → Fin S1x64x1x2.rank)
  bcast_S64x4096x2_S64x1x4096x2_0_2_3 : S64x4096x2.BroadcastsInDim S64x1x4096x2 (![0, 2, 3] : Fin 3 → Fin S64x1x4096x2.rank)
  bcast_S1x64x1x2_S64x64x4096x2_0_1_2_3 : S1x64x1x2.BroadcastsInDim S64x64x4096x2 (![0, 1, 2, 3] : Fin 4 → Fin S64x64x4096x2.rank)
  bcast_S64x1x4096x2_S64x64x4096x2_0_1_2_3 : S64x1x4096x2.BroadcastsInDim S64x64x4096x2 (![0, 1, 2, 3] : Fin 4 → Fin S64x64x4096x2.rank)
  bcast_S_S64x64x4096x2 : S_.BroadcastsInDim S64x64x4096x2 (![] : Fin 0 → Fin S64x64x4096x2.rank)
  reducesTo_S64x64x4096x2_S64x64x4096_d3 : S64x64x4096x2.ReducesTo [3] S64x64x4096
  h_S_ : 0 < S_.numel
  bcast_S_S64x4096 : S_.BroadcastsInDim S64x4096 (![] : Fin 0 → Fin S64x4096.rank)
  bcast_S64x4096_S64x1x4096_0_2 : S64x4096.BroadcastsInDim S64x1x4096 (![0, 2] : Fin 2 → Fin S64x1x4096.rank)
  bcast_S64x1x4096_S64x64x4096_0_1_2 : S64x1x4096.BroadcastsInDim S64x64x4096 (![0, 1, 2] : Fin 3 → Fin S64x64x4096.rank)
  reducesTo_S64x64x4096_S64x64_d2 : S64x64x4096.ReducesTo [2] S64x64

variable [Facts₀]

class Facts : Prop extends Facts₀ where

variable [Facts]
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.ChunkSum.lean ====
/-
  One trip of a row's loop, read on the extended reals.

  A trip takes the running row `acc : [1,64]`, the three channel chunks `a b z : [1,1,512]` of one batch row, the two
  centre columns `c0 c1 : [64,1]` and the two squared-sharpness columns `q0 q1 : [64,1]`, and returns the row with,
  at each centre `e`, the sum over the chunk's 512 samples of `exp (-(d₀·d₀·q₀ + d₁·d₁·q₁ + z·z))` added to it. The two
  "is it a NaN" selects compare a value with itself for inequality, which is never true of an extended real, so they
  keep their second branch; the negation is spelt `0 - ·`.
-/
import proofs.«161177_j34883724378859_2_alg».proof.Proof.Gen.KernelIdeal.Skeleton
import proofs.«161177_j34883724378859_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RbfValue

open Cert.KernelIdeal Cert.KernelIdeal.Gen Idealize.ShloMosaic Idealize.ShloMosaic.ValueIdx

/-- The summand of one chunk at centre `e` and sample `n` of the chunk. -/
def chunkTerm (c0 c1 q0 q1 : FVec Ideal S64x1 .f32) (a b z : Vec Ideal S1x1x512 .f32) (e : Fin 64) (n : Fin 512) : EReal :=
  Ideal.exp (-((c0 (ix2 e (0 : Fin 1)) - a (ix3 (0 : Fin 1) (0 : Fin 1) n)) * (c0 (ix2 e (0 : Fin 1)) - a (ix3 (0 : Fin 1) (0 : Fin 1) n)) * q0 (ix2 e (0 : Fin 1))
    + (c1 (ix2 e (0 : Fin 1)) - b (ix3 (0 : Fin 1) (0 : Fin 1) n)) * (c1 (ix2 e (0 : Fin 1)) - b (ix3 (0 : Fin 1) (0 : Fin 1) n)) * q1 (ix2 e (0 : Fin 1))
    + z (ix3 (0 : Fin 1) (0 : Fin 1) n) * z (ix3 (0 : Fin 1) (0 : Fin 1) n)))

/-- An extended real is never different from itself: the comparison answers "no". -/
theorem cmp_one_self (x : EReal) : Ideal.cmp .one x x = 0#1 := by
  simp [Ideal.cmp]

/-- A `[1,1,512]` chunk flattened to `[512]` reads sample `n` at `(0,0,n)`. -/
theorem flat_apply (v : Vec Ideal S1x1x512 .f32) (n : Fin 512) :
    shapeCast S512 v shapeCasts_S1x1x512_S512 (ix1 n) = v (ix3 (0 : Fin 1) (0 : Fin 1) n) :=
  shapeCast_apply v _ _ _ (by
    rw [Shape.rowMajor_val_three, Shape.rowMajor_val_one]
    show (0 * 1 + 0) * 512 + n.val = n.val
    omega)

/-- A `[64,1]` column spread along the 512 lanes reads, at `(e, n)`, the column at `e`. -/
theorem col_apply (v : FVec Ideal S64x1 .f32) (e : Fin 64) (n : Fin 512) :
    broadcastTo S64x512 v broadcasts_S64x1_S64x512 (ix2 e n) = v (ix2 e (0 : Fin 1)) :=
  Cert.LibKeepdims.broadcastTo_a1_ab_apply v _ e n

/-- A `[512]` chunk laid as one row and spread down the 64 centres reads, at `(e, n)`, the chunk at `n`. -/
theorem rowb_apply (w : FVec Ideal S512 .f32) (e : Fin 64) (n : Fin 512) :
    broadcastTo S64x512 (shapeCast S1x512 w shapeCasts_S512_S1x512) broadcasts_S1x512_S64x512 (ix2 e n) = w (ix1 n) := by
  rw [broadcastTo_1b_ab_apply, shapeCast_a_1a_apply]

/-- The trip's result at centre `e`: the running value there plus the chunk's 512 summands. -/
theorem pay2_apply (c0 c1 q0 q1 : FVec Ideal S64x1 .f32) (acc : FVec Ideal S1x64 .f32) (a b z : Vec Ideal S1x1x512 .f32) (e : Fin 64) :
    k0_pay2 c0 c1 q0 q1 acc a b z (ix2 (0 : Fin 1) e)
      = acc (ix2 (0 : Fin 1) e) + ∑ n : Fin 512, chunkTerm c0 c1 q0 q1 a b z e n := by
  unfold k0_pay2
  dsimp only
  show acc (ix2 (0 : Fin 1) e) + shapeCast S1x64 _ shapeCasts_S64_S1x64 (ix2 (0 : Fin 1) e) = _
  refine congrArg (acc (ix2 (0 : Fin 1) e) + ·) ?_
  refine (shapeCast_a_1a_apply _ shapeCasts_S64_S1x64 (0 : Fin 1) e).trans ?_
  refine (Cert.LibKeepdims.add_axis1_apply _ _ _ _ _ e).trans ?_
  refine Finset.sum_congr rfl fun n _ => ?_
  simp only [Idealize.ShloMosaic.exp, subf_apply, addf_apply, select_apply, cmpf_apply, mulf_apply, broadcast_apply, col_apply,
    rowb_apply, flat_apply, Ideal.cmpf_def, cmp_one_self, select_zero, Ideal.exp_def, Ideal.ofBits_def,
    Ideal.ofBits_zero_f32, zero_sub]
  rw [flat_apply a n, flat_apply b n, flat_apply z n]
  rfl

end Cert.KernelIdeal.RbfValue

end
-- ==== Proof.LibRowBlocks.lean ====
/- General lemmas about a reduction carried block by block.

   A kernel that reduces a long axis in tiles keeps a running value: the first tile combines its own reduction with the
   neutral start, every later tile combines its reduction with what the tile before left. The lemmas below say that the value
   after the last tile is the reduction of all the tiles' reductions, for a sum in any commutative additive monoid (the extended
   reals at the ideal reading of floats) and for a maximum in any join-semilattice, and that a sum over positions
   `a · B + b` of a long axis is the sum over tiles `a` of the sums over positions `b` inside the tile. Nothing here mentions a
   program. -/
import Mathlib.Algebra.BigOperators.Fin
import Mathlib.Data.Finset.Range
import Mathlib.Algebra.BigOperators.Group.Finset.Basic
import Mathlib.Order.Lattice
import Mathlib.Data.Finset.Lattice.Fold
import Mathlib.Logic.Equiv.Fin.Basic

namespace RowBlocks

open Finset

/-- A running sum: `S 0 = z + s 0` and `S (t + 1) = S t + s (t + 1)` up to tile `n` give `S n = z + ∑ t ≤ n, s t`. -/
theorem running_sum {α : Type*} [AddCommMonoid α] (s S : ℕ → α) (z : α) (n : ℕ) (h0 : S 0 = z + s 0)
    (hs : ∀ t, t < n → S (t + 1) = S t + s (t + 1)) : S n = z + ∑ t ∈ range (n + 1), s t := by
  induction n with
  | zero => simpa using h0
  | succ k ih =>
    rw [hs k (Nat.lt_succ_self k), ih fun t ht => hs t (Nat.lt_succ_of_lt ht), sum_range_succ (fun t => s t) (k + 1), add_assoc]

/-- A running maximum: `M 0 = z ⊔ m 0` and `M (t + 1) = M t ⊔ m (t + 1)` up to tile `n` give `M n = z ⊔ sup_{t ≤ n} m t`. -/
theorem running_sup {β : Type*} [SemilatticeSup β] (m M : ℕ → β) (z : β) (n : ℕ) (h0 : M 0 = z ⊔ m 0)
    (hs : ∀ t, t < n → M (t + 1) = M t ⊔ m (t + 1)) : M n = z ⊔ (range (n + 1)).sup' nonempty_range_add_one m := by
  induction n with
  | zero => simpa using h0
  | succ k ih =>
    rw [hs k (Nat.lt_succ_self k), ih fun t ht => hs t (Nat.lt_succ_of_lt ht), sup_assoc]
    congr 1
    apply le_antisymm
    · refine sup_le (sup'_le _ _ fun t ht => le_sup' m (mem_range.mpr (Nat.lt_succ_of_lt (mem_range.mp ht)))) (le_sup' m (mem_range.mpr (Nat.lt_succ_self _)))
    · refine sup'_le _ _ fun t ht => ?_
      rcases Nat.lt_succ_iff_lt_or_eq.mp (mem_range.mp ht) with h | h
      · exact le_sup_of_le_left (le_sup' m (mem_range.mpr h))
      · subst h; exact le_sup_right

/-- A sum over the positions of a long axis of extent `A · B`, position `a · B + b` being position `b` of tile `a`, is the sum
    over the tiles of the sums inside each tile. -/
theorem sum_tiles {α : Type*} [AddCommMonoid α] (A B : ℕ) (f : Fin (A * B) → α) :
    ∑ k : Fin (A * B), f k = ∑ a : Fin A, ∑ b : Fin B, f (finProdFinEquiv (a, b)) := by
  rw [← Fintype.sum_prod_type' (fun a b => f (finProdFinEquiv (a, b)))]
  exact (Equiv.sum_comp finProdFinEquiv f).symm

end RowBlocks
-- ==== Proof.RowLoop.lean ====
/-
  A row's loop, read on the extended reals: eight trips of 512 samples are the sum over the 4096 samples.

  The loop of batch row `r` starts from the zero row and adds, trip `k`, the sum over the samples `512·k + n` of the
  row's summand. So after the last trip the row holds, at each centre, the sum over all 4096 samples: a sum of sums over
  consecutive tiles is the sum over the whole axis, and the order of an extended-real sum does not matter.
-/
import proofs.«161177_j34883724378859_2_alg».proof.Proof.ChunkSum
import proofs.«161177_j34883724378859_2_alg».proof.Proof.LibRowBlocks

noncomputable section

namespace Cert.KernelIdeal.RbfValue

open Cert.KernelIdeal Cert.KernelIdeal.Gen Idealize.ShloMosaic Idealize.ShloMosaic.ValueIdx

/-- The summand of batch row `r` of a `[3,8,4096]` block at centre `e` and sample `p`. -/
def rowTerm (x0 : Vec Ideal S3x8x4096 .f32) (c0 c1 q0 q1 : FVec Ideal S64x1 .f32) (r : Fin 8) (e : Fin 64) (p : Fin 4096) : EReal :=
  Ideal.exp (-((c0 (ix2 e (0 : Fin 1)) - x0 (ix3 (0 : Fin 3) r p)) * (c0 (ix2 e (0 : Fin 1)) - x0 (ix3 (0 : Fin 3) r p)) * q0 (ix2 e (0 : Fin 1))
    + (c1 (ix2 e (0 : Fin 1)) - x0 (ix3 (1 : Fin 3) r p)) * (c1 (ix2 e (0 : Fin 1)) - x0 (ix3 (1 : Fin 3) r p)) * q1 (ix2 e (0 : Fin 1))
    + x0 (ix3 (2 : Fin 3) r p) * x0 (ix3 (2 : Fin 3) r p)))

/-- A running value that each step increases by `g k` ends at its start plus the sum of the increments. -/
theorem running_total {α : Type*} [AddCommMonoid α] (N : ℕ) (s : ℕ → α) (g : Fin N → α)
    (hs : ∀ k : Fin N, s (k.val + 1) = s k.val + g k) : s N = s 0 + ∑ k : Fin N, g k := by
  have key : ∀ (M : ℕ) (hM : M ≤ N), s M = s 0 + ∑ k : Fin M, g (Fin.castLE hM k) := by
    intro M
    induction M with
    | zero => intro _; simp
    | succ M ih =>
      intro hM
      have h1 := hs ⟨M, hM⟩
      have e1 : ∑ i : Fin M, g (Fin.castLE hM i.castSucc) = ∑ i : Fin M, g (Fin.castLE (Nat.le_of_succ_le hM) i) :=
        Finset.sum_congr rfl fun i _ => congrArg g (Fin.ext rfl)
      have e2 : Fin.castLE hM (Fin.last M) = ⟨M, hM⟩ := Fin.ext rfl
      rw [Fin.sum_univ_castSucc, ← add_assoc, e1, e2, ← ih (Nat.le_of_succ_le hM)]
      exact h1
  have := key N le_rfl
  simpa using this

/-- Eight tiles of 512 consecutive positions are the 4096 positions. -/
theorem sum_tiles_4096 {α : Type*} [AddCommMonoid α] (N : ℕ) (hN : N = 8) (f : Fin 4096 → α)
    (pos : Fin N → Fin 512 → Fin 4096) (hpos : ∀ k n, (pos k n).val = 512 * k.val + n.val) :
    ∑ k : Fin N, ∑ n : Fin 512, f (pos k n) = ∑ p : Fin 4096, f p := by
  subst hN
  have h := RowBlocks.sum_tiles 8 512 (fun p : Fin (8 * 512) => f p)
  refine Eq.trans ?_ h.symm
  refine Finset.sum_congr rfl fun k _ => Finset.sum_congr rfl fun n _ => ?_
  refine congrArg f (Fin.ext ?_)
  rw [hpos]
  show _ = (finProdFinEquiv (k, n)).val
  rw [finProdFinEquiv_apply_val]
  show _ = n.val + 512 * k.val
  omega

/-- THE LOOP OF ONE ROW. A sequence of rows that starts at zero and whose step `k` is one trip on the chunks
    `A k`, `B k`, `Z k` — the samples `512·k + n` of channels 0, 1, 2 of batch row `r` of the block — ends, at
    each centre, at the sum of the row's 4096 summands. -/
theorem row_loop (N : ℕ) (hN : N = 8) (st : ℕ → FVec Ideal S1x64 .f32) (c0 c1 q0 q1 : FVec Ideal S64x1 .f32)
    (x0 : Vec Ideal S3x8x4096 .f32) (r : Fin 8) (A B Z : Fin N → Vec Ideal S1x1x512 .f32)
    (pos : Fin N → Fin 512 → Fin 4096) (hpos : ∀ k n, (pos k n).val = 512 * k.val + n.val)
    (hA : ∀ k n, A k (ix3 (0 : Fin 1) (0 : Fin 1) n) = x0 (ix3 (0 : Fin 3) r (pos k n)))
    (hB : ∀ k n, B k (ix3 (0 : Fin 1) (0 : Fin 1) n) = x0 (ix3 (1 : Fin 3) r (pos k n)))
    (hZ : ∀ k n, Z k (ix3 (0 : Fin 1) (0 : Fin 1) n) = x0 (ix3 (2 : Fin 3) r (pos k n)))
    (hs : ∀ k : Fin N, st (k.val + 1) = k0_pay2 c0 c1 q0 q1 (st k.val) (A k) (B k) (Z k))
    (h0 : ∀ e : Fin 64, st 0 (ix2 (0 : Fin 1) e) = 0) (e : Fin 64) :
    st N (ix2 (0 : Fin 1) e) = ∑ p : Fin 4096, rowTerm x0 c0 c1 q0 q1 r e p := by
  have h := running_total N (fun k => st k (ix2 (0 : Fin 1) e))
    (fun k => ∑ n : Fin 512, chunkTerm c0 c1 q0 q1 (A k) (B k) (Z k) e n)
    (fun k => by show st (k.val + 1) _ = _; rw [hs k]; exact pay2_apply ..)
  refine h.trans ?_
  rw [h0 e, zero_add, ← sum_tiles_4096 N hN (rowTerm x0 c0 c1 q0 q1 r e) pos hpos]
  refine Finset.sum_congr rfl fun k _ => Finset.sum_congr rfl fun n _ => ?_
  unfold chunkTerm rowTerm
  rw [hA, hB, hZ]

end Cert.KernelIdeal.RbfValue

end
-- ==== Proof.Trips.lean ====
/-
  One trip of each of the eight row loops, as the pure function of the values it reads.

  The body of the loop of batch row `r` loads, at trip `k`, the three channel chunks `[ch, r, 512·k : 512·k + 512]` of
  the staged `[3,8,4096]` block and yields the trip function of the running row and those chunks. The eight loops have the
  same body; the first four are printed over the raw loads of the centre and sharpness columns, the last four over the
  columns already prepared, and the prepared columns are the same functions of the raw loads in both.
-/
import proofs.«161177_j34883724378859_2_alg».proof.Proof.Gen.KernelIdeal.Loops

noncomputable section

namespace Cert.KernelIdeal.RbfValue

open Cert.KernelIdeal Cert.KernelIdeal.Gen Idealize.ShloMosaic Idealize.ShloMosaic.TcCoe Idealize.SL.Sem

variable {F : FTy → Type} [FloatOps F]

/-- What a load of the `[1,1,512]` chunk at offsets `off` reads of the staged block's contents `X`. -/
abbrev chunkAt (arg1 : Memref sig .tc .vmem S3x8x4096 .f32) (off : Fin 3 → Nat)
    (inb : ∀ a, off a + S1x1x512.size a ≤ S3x8x4096.size a) (X : BufTy.Contents (Elt F) arg1.view.ty) : Vec F S1x1x512 .f32 :=
  View.readAt (Elt F) arg1.view (Rect.unit (s := S3x8x4096) off S1x1x512.size inb).toLoadRect X

/-- The trip functions of the eight loops are one function. -/
theorem pay4_eq : @k0_pay4 F _ = @k0_pay2 F _ := rfl
theorem pay6_eq : @k0_pay6 F _ = @k0_pay2 F _ := rfl
theorem pay8_eq : @k0_pay8 F _ = @k0_pay2 F _ := rfl
theorem pay15_eq (v0 : Vec F S64x1 .f32) (v2 : Vec F S64x1 .f32) (v4 : Vec F S64x1 .f32) (v6 : Vec F S64x1 .f32) (v9 : Vec F S64x1 .f32) (v11 : Vec F S64x1 .f32) : k0_pay15 v0 v2 v4 v6 v9 v11 = k0_pay2 (k0_pay10 v0) (k0_pay11 v2) (k0_pay12 v4 v6) (k0_pay13 v9 v11) := rfl
theorem pay17_eq (v0 : Vec F S64x1 .f32) (v2 : Vec F S64x1 .f32) (v4 : Vec F S64x1 .f32) (v6 : Vec F S64x1 .f32) (v9 : Vec F S64x1 .f32) (v11 : Vec F S64x1 .f32) : k0_pay17 v0 v2 v4 v6 v9 v11 = k0_pay2 (k0_pay10 v0) (k0_pay11 v2) (k0_pay12 v4 v6) (k0_pay13 v9 v11) := rfl
theorem pay19_eq (v0 : Vec F S64x1 .f32) (v2 : Vec F S64x1 .f32) (v4 : Vec F S64x1 .f32) (v6 : Vec F S64x1 .f32) (v9 : Vec F S64x1 .f32) (v11 : Vec F S64x1 .f32) : k0_pay19 v0 v2 v4 v6 v9 v11 = k0_pay2 (k0_pay10 v0) (k0_pay11 v2) (k0_pay12 v4 v6) (k0_pay13 v9 v11) := rfl
theorem pay21_eq (v0 : Vec F S64x1 .f32) (v2 : Vec F S64x1 .f32) (v4 : Vec F S64x1 .f32) (v6 : Vec F S64x1 .f32) (v9 : Vec F S64x1 .f32) (v11 : Vec F S64x1 .f32) : k0_pay21 v0 v2 v4 v6 v9 v11 = k0_pay2 (k0_pay10 v0) (k0_pay11 v2) (k0_pay12 v4 v6) (k0_pay13 v9 v11) := rfl

/-- Trip `k` of the loop of batch row 0. -/
theorem trip_t1 (𝒱 : Variants) (c : Dev nD) (bd : Option 𝒱.V) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v0 : Vec F S64x1 .f32) (v2 : Vec F S64x1 .f32) (v4 : Vec F S64x1 .f32) (v6 : Vec F S64x1 .f32) (v9 : Vec F S64x1 .f32) (v11 : Vec F S64x1 .f32) (X : BufTy.Contents (Elt F) arg1.view.ty) (k : Fin k0_t1_loop.trips) (acc : FVec F S1x64 .f32) :
    tripR_k0_t1 (F := F) 𝒱 c bd i arg1 harg1 arg2 harg2 arg3 harg3 arg4 harg4 arg5 harg5 arg6 harg6 v0 v2 v4 v6 v9 v11 X k acc
      = k0_pay2 (k0_pay10 v0) (k0_pay11 v2) (k0_pay12 v4 v6) (k0_pay13 v9 v11) acc (chunkAt arg1 (k0_off1 k) (Gen.k0_off1_inb k) X) (chunkAt arg1 (k0_off2 k) (Gen.k0_off2_inb k) X) (chunkAt arg1 (k0_off3 k) (Gen.k0_off3_inb k) X) := by
  rw [← pay15_eq]
  unfold tripR_k0_t1 trip_k0_t1
  rfl

/-- Trip `k` of the loop of batch row 1. -/
theorem trip_t2 (𝒱 : Variants) (c : Dev nD) (bd : Option 𝒱.V) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v0 : Vec F S64x1 .f32) (v2 : Vec F S64x1 .f32) (v4 : Vec F S64x1 .f32) (v6 : Vec F S64x1 .f32) (v9 : Vec F S64x1 .f32) (v11 : Vec F S64x1 .f32) (X : BufTy.Contents (Elt F) arg1.view.ty) (k : Fin k0_t2_loop.trips) (acc : FVec F S1x64 .f32) :
    tripR_k0_t2 (F := F) 𝒱 c bd i arg1 harg1 arg2 harg2 arg3 harg3 arg4 harg4 arg5 harg5 arg6 harg6 v0 v2 v4 v6 v9 v11 X k acc
      = k0_pay2 (k0_pay10 v0) (k0_pay11 v2) (k0_pay12 v4 v6) (k0_pay13 v9 v11) acc (chunkAt arg1 (k0_off4 k) (Gen.k0_off4_inb k) X) (chunkAt arg1 (k0_off5 k) (Gen.k0_off5_inb k) X) (chunkAt arg1 (k0_off6 k) (Gen.k0_off6_inb k) X) := by
  rw [← pay17_eq]
  unfold tripR_k0_t2 trip_k0_t2
  rfl

/-- Trip `k` of the loop of batch row 2. -/
theorem trip_t3 (𝒱 : Variants) (c : Dev nD) (bd : Option 𝒱.V) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v0 : Vec F S64x1 .f32) (v2 : Vec F S64x1 .f32) (v4 : Vec F S64x1 .f32) (v6 : Vec F S64x1 .f32) (v9 : Vec F S64x1 .f32) (v11 : Vec F S64x1 .f32) (X : BufTy.Contents (Elt F) arg1.view.ty) (k : Fin k0_t3_loop.trips) (acc : FVec F S1x64 .f32) :
    tripR_k0_t3 (F := F) 𝒱 c bd i arg1 harg1 arg2 harg2 arg3 harg3 arg4 harg4 arg5 harg5 arg6 harg6 v0 v2 v4 v6 v9 v11 X k acc
      = k0_pay2 (k0_pay10 v0) (k0_pay11 v2) (k0_pay12 v4 v6) (k0_pay13 v9 v11) acc (chunkAt arg1 (k0_off7 k) (Gen.k0_off7_inb k) X) (chunkAt arg1 (k0_off8 k) (Gen.k0_off8_inb k) X) (chunkAt arg1 (k0_off9 k) (Gen.k0_off9_inb k) X) := by
  rw [← pay19_eq]
  unfold tripR_k0_t3 trip_k0_t3
  rfl

/-- Trip `k` of the loop of batch row 3. -/
theorem trip_t4 (𝒱 : Variants) (c : Dev nD) (bd : Option 𝒱.V) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v0 : Vec F S64x1 .f32) (v2 : Vec F S64x1 .f32) (v4 : Vec F S64x1 .f32) (v6 : Vec F S64x1 .f32) (v9 : Vec F S64x1 .f32) (v11 : Vec F S64x1 .f32) (X : BufTy.Contents (Elt F) arg1.view.ty) (k : Fin k0_t4_loop.trips) (acc : FVec F S1x64 .f32) :
    tripR_k0_t4 (F := F) 𝒱 c bd i arg1 harg1 arg2 harg2 arg3 harg3 arg4 harg4 arg5 harg5 arg6 harg6 v0 v2 v4 v6 v9 v11 X k acc
      = k0_pay2 (k0_pay10 v0) (k0_pay11 v2) (k0_pay12 v4 v6) (k0_pay13 v9 v11) acc (chunkAt arg1 (k0_off10 k) (Gen.k0_off10_inb k) X) (chunkAt arg1 (k0_off11 k) (Gen.k0_off11_inb k) X) (chunkAt arg1 (k0_off12 k) (Gen.k0_off12_inb k) X) := by
  rw [← pay21_eq]
  unfold tripR_k0_t4 trip_k0_t4
  rfl

/-- Trip `k` of the loop of batch row 4. -/
theorem trip_t5 (𝒱 : Variants) (c : Dev nD) (bd : Option 𝒱.V) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v1 : FVec F S64x1 .f32) (v3 : FVec F S64x1 .f32) (v8 : FVec F S64x1 .f32) (v13 : FVec F S64x1 .f32) (X : BufTy.Contents (Elt F) arg1.view.ty) (k : Fin k0_t5_loop.trips) (acc : FVec F S1x64 .f32) :
    tripR_k0_t5 (F := F) 𝒱 c bd i arg1 harg1 arg2 harg2 arg3 harg3 arg4 harg4 arg5 harg5 arg6 harg6 v1 v3 v8 v13 X k acc
      = k0_pay2 v1 v3 v8 v13 acc (chunkAt arg1 (k0_off13 k) (Gen.k0_off13_inb k) X) (chunkAt arg1 (k0_off14 k) (Gen.k0_off14_inb k) X) (chunkAt arg1 (k0_off15 k) (Gen.k0_off15_inb k) X) := by
  unfold tripR_k0_t5 trip_k0_t5
  rfl

/-- Trip `k` of the loop of batch row 5. -/
theorem trip_t6 (𝒱 : Variants) (c : Dev nD) (bd : Option 𝒱.V) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v1 : FVec F S64x1 .f32) (v3 : FVec F S64x1 .f32) (v8 : FVec F S64x1 .f32) (v13 : FVec F S64x1 .f32) (X : BufTy.Contents (Elt F) arg1.view.ty) (k : Fin k0_t6_loop.trips) (acc : FVec F S1x64 .f32) :
    tripR_k0_t6 (F := F) 𝒱 c bd i arg1 harg1 arg2 harg2 arg3 harg3 arg4 harg4 arg5 harg5 arg6 harg6 v1 v3 v8 v13 X k acc
      = k0_pay2 v1 v3 v8 v13 acc (chunkAt arg1 (k0_off16 k) (Gen.k0_off16_inb k) X) (chunkAt arg1 (k0_off17 k) (Gen.k0_off17_inb k) X) (chunkAt arg1 (k0_off18 k) (Gen.k0_off18_inb k) X) := by
  rw [← pay4_eq]
  unfold tripR_k0_t6 trip_k0_t6
  rfl

/-- Trip `k` of the loop of batch row 6. -/
theorem trip_t7 (𝒱 : Variants) (c : Dev nD) (bd : Option 𝒱.V) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v1 : FVec F S64x1 .f32) (v3 : FVec F S64x1 .f32) (v8 : FVec F S64x1 .f32) (v13 : FVec F S64x1 .f32) (X : BufTy.Contents (Elt F) arg1.view.ty) (k : Fin k0_t7_loop.trips) (acc : FVec F S1x64 .f32) :
    tripR_k0_t7 (F := F) 𝒱 c bd i arg1 harg1 arg2 harg2 arg3 harg3 arg4 harg4 arg5 harg5 arg6 harg6 v1 v3 v8 v13 X k acc
      = k0_pay2 v1 v3 v8 v13 acc (chunkAt arg1 (k0_off19 k) (Gen.k0_off19_inb k) X) (chunkAt arg1 (k0_off20 k) (Gen.k0_off20_inb k) X) (chunkAt arg1 (k0_off21 k) (Gen.k0_off21_inb k) X) := by
  rw [← pay6_eq]
  unfold tripR_k0_t7 trip_k0_t7
  rfl

/-- Trip `k` of the loop of batch row 7. -/
theorem trip_t8 (𝒱 : Variants) (c : Dev nD) (bd : Option 𝒱.V) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v1 : FVec F S64x1 .f32) (v3 : FVec F S64x1 .f32) (v8 : FVec F S64x1 .f32) (v13 : FVec F S64x1 .f32) (X : BufTy.Contents (Elt F) arg1.view.ty) (k : Fin k0_t8_loop.trips) (acc : FVec F S1x64 .f32) :
    tripR_k0_t8 (F := F) 𝒱 c bd i arg1 harg1 arg2 harg2 arg3 harg3 arg4 harg4 arg5 harg5 arg6 harg6 v1 v3 v8 v13 X k acc
      = k0_pay2 v1 v3 v8 v13 acc (chunkAt arg1 (k0_off22 k) (Gen.k0_off22_inb k) X) (chunkAt arg1 (k0_off23 k) (Gen.k0_off23_inb k) X) (chunkAt arg1 (k0_off24 k) (Gen.k0_off24_inb k) X) := by
  rw [← pay8_eq]
  unfold tripR_k0_t8 trip_k0_t8
  rfl

end Cert.KernelIdeal.RbfValue

end
-- ==== Proof.Rows.lean ====
/-
  What the body leaves in the output block: at `(r, e)` the sum of batch row `r`'s 4096 summands at centre `e`.

  The body runs eight loops, one per batch row of the staged `[3,8,4096]` block, stacks their eight `[1,64]` rows and
  stores the stack over the whole `[8,64]` output block. A chunk load at offsets `[ch, r, 512·k]` reads the block at
  `(ch, r, 512·k + n)`; so each loop is the row loop of `RowLoop.lean`, and the stored stack at `(r, e)` is loop `r`'s row at `e`.
-/
import proofs.«161177_j34883724378859_2_alg».proof.Proof.RowLoop
import proofs.«161177_j34883724378859_2_alg».proof.Proof.Trips
import proofs.«161177_j34883724378859_2_alg».proof.Proof.Gen.KernelIdeal.Frame
import Idealize.ShloMosaic.Lib.Tactic
import Idealize.ShloMosaic.Lib.Pipeline.Value

set_option maxRecDepth 16384

noncomputable section

namespace Cert.KernelIdeal.RbfValue

open Cert.KernelIdeal Cert.KernelIdeal.Gen Idealize.ShloMosaic Idealize.ShloMosaic.TcCoe Idealize.SL.Sem
open Idealize.ShloMosaic.ValueIdx Idealize.ShloMosaic.Tactic

theorem hz2 : (![0, 0] : Fin 2 → Nat) = fun _ => 0 := funext fun a => by fin_cases a <;> rfl

/-- A chunk load at offsets `[ch, r, 512·k]` of a whole staged block holding `x0` reads, at sample `n` of the chunk,
    `x0` at `(ch, r, 512·k + n)`. -/
theorem chunk_apply (arg1 : Memref sig .tc .vmem S3x8x4096 .f32) (harg1 : arg1.IsWhole) (x0 : Vec Ideal S3x8x4096 .f32)
    (off : Fin 3 → Nat) (inb : ∀ a, off a + S1x1x512.size a ≤ S3x8x4096.size a) (ch : Fin 3) (r : Fin 8) (k : ℕ)
    (hoff : off = ![ch.val, r.val, 512 * k]) (n : Fin 512) (p : Fin 4096) (hp : p.val = 512 * k + n.val) :
    chunkAt (F := Ideal) arg1 off inb (harg1.unread x0) (ix3 (0 : Fin 1) (0 : Fin 1) n) = x0 (ix3 ch r p) := by
  show View.ld (arg1.view.read (Elt Ideal) (harg1.unread x0)) (Rect.unit (s := S3x8x4096) off S1x1x512.size inb) _ = _
  rw [harg1.read_unread]
  show x0 ((Rect.unit (s := S3x8x4096) off S1x1x512.size inb).idx (ix3 (0 : Fin 1) (0 : Fin 1) n)) = _
  refine congrArg x0 (funext fun a => Fin.ext ?_)
  subst hoff
  match a with
  | ⟨0, _⟩ => show ch.val + 1 * 0 = ch.val; omega
  | ⟨1, _⟩ => show r.val + 1 * 0 = r.val; omega
  | ⟨2, _⟩ => show 512 * k + 1 * n.val = p.val; omega

/-- The loops start from the zero row. -/
theorem zero_row (z : FVec Ideal S1x64 .f32) (hzr : z = broadcast S1x64 (Ideal.ofBits .f32 0x00000000#32)) (e : Fin 64) :
    z (ix2 (0 : Fin 1) e) = 0 := by
  subst hzr; exact Ideal.ofBits_zero_f32

/-- The loop of batch row 0. -/
theorem row_t1 (c : Dev nD) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v0 : Vec Ideal S64x1 .f32) (v2 : Vec Ideal S64x1 .f32) (v4 : Vec Ideal S64x1 .f32) (v6 : Vec Ideal S64x1 .f32) (v9 : Vec Ideal S64x1 .f32) (v11 : Vec Ideal S64x1 .f32) (x0 : Vec Ideal S3x8x4096 .f32) (e : Fin 64) :
    st_k0_t1 (F := Ideal) Variants.none c none i arg1 harg1 arg2 harg2 arg3 harg3 arg4 harg4 arg5 harg5 arg6 harg6 v0 v2 v4 v6 v9 v11 (harg1.unread x0) k0_pay14 k0_t1_loop.trips (ix2 (0 : Fin 1) e)
      = ∑ p : Fin 4096, rowTerm x0 (k0_pay10 v0) (k0_pay11 v2) (k0_pay12 v4 v6) (k0_pay13 v9 v11) (0 : Fin 8) e p :=
  row_loop k0_t1_loop.trips (by decide +kernel)
    (fun k => st_k0_t1 (F := Ideal) Variants.none c none i arg1 harg1 arg2 harg2 arg3 harg3 arg4 harg4 arg5 harg5 arg6 harg6 v0 v2 v4 v6 v9 v11 (harg1.unread x0) k0_pay14 k)
    (k0_pay10 v0) (k0_pay11 v2) (k0_pay12 v4 v6) (k0_pay13 v9 v11) x0 (0 : Fin 8)
    (fun k => chunkAt arg1 (k0_off1 k) (Gen.k0_off1_inb k) (harg1.unread x0))
    (fun k => chunkAt arg1 (k0_off2 k) (Gen.k0_off2_inb k) (harg1.unread x0))
    (fun k => chunkAt arg1 (k0_off3 k) (Gen.k0_off3_inb k) (harg1.unread x0))
    (fun k n => ⟨512 * k.val + n.val, by have := k.isLt; have := k0_t1_abs.2.1; have := n.isLt; omega⟩) (fun k n => rfl)
    (fun k n => chunk_apply arg1 harg1 x0 _ _ (0 : Fin 3) (0 : Fin 8) k.val (k0_off1_eq k) n _ rfl)
    (fun k n => chunk_apply arg1 harg1 x0 _ _ (1 : Fin 3) (0 : Fin 8) k.val (k0_off2_eq k) n _ rfl)
    (fun k n => chunk_apply arg1 harg1 x0 _ _ (2 : Fin 3) (0 : Fin 8) k.val (k0_off3_eq k) n _ rfl)
    (fun k => (st_k0_t1_succ (F := Ideal) Variants.none c none i arg1 harg1 arg2 harg2 arg3 harg3 arg4 harg4 arg5 harg5 arg6 harg6 v0 v2 v4 v6 v9 v11 (harg1.unread x0) k0_pay14 k).trans
      (trip_t1 Variants.none c none i arg1 harg1 arg2 harg2 arg3 harg3 arg4 harg4 arg5 harg5 arg6 harg6 v0 v2 v4 v6 v9 v11 (harg1.unread x0) k _))
    (fun e => zero_row _ rfl e) e

/-- The loop of batch row 1. -/
theorem row_t2 (c : Dev nD) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v0 : Vec Ideal S64x1 .f32) (v2 : Vec Ideal S64x1 .f32) (v4 : Vec Ideal S64x1 .f32) (v6 : Vec Ideal S64x1 .f32) (v9 : Vec Ideal S64x1 .f32) (v11 : Vec Ideal S64x1 .f32) (x0 : Vec Ideal S3x8x4096 .f32) (e : Fin 64) :
    st_k0_t2 (F := Ideal) Variants.none c none i arg1 harg1 arg2 harg2 arg3 harg3 arg4 harg4 arg5 harg5 arg6 harg6 v0 v2 v4 v6 v9 v11 (harg1.unread x0) k0_pay16 k0_t2_loop.trips (ix2 (0 : Fin 1) e)
      = ∑ p : Fin 4096, rowTerm x0 (k0_pay10 v0) (k0_pay11 v2) (k0_pay12 v4 v6) (k0_pay13 v9 v11) (1 : Fin 8) e p :=
  row_loop k0_t2_loop.trips (by decide +kernel)
    (fun k => st_k0_t2 (F := Ideal) Variants.none c none i arg1 harg1 arg2 harg2 arg3 harg3 arg4 harg4 arg5 harg5 arg6 harg6 v0 v2 v4 v6 v9 v11 (harg1.unread x0) k0_pay16 k)
    (k0_pay10 v0) (k0_pay11 v2) (k0_pay12 v4 v6) (k0_pay13 v9 v11) x0 (1 : Fin 8)
    (fun k => chunkAt arg1 (k0_off4 k) (Gen.k0_off4_inb k) (harg1.unread x0))
    (fun k => chunkAt arg1 (k0_off5 k) (Gen.k0_off5_inb k) (harg1.unread x0))
    (fun k => chunkAt arg1 (k0_off6 k) (Gen.k0_off6_inb k) (harg1.unread x0))
    (fun k n => ⟨512 * k.val + n.val, by have := k.isLt; have := k0_t2_abs.2.1; have := n.isLt; omega⟩) (fun k n => rfl)
    (fun k n => chunk_apply arg1 harg1 x0 _ _ (0 : Fin 3) (1 : Fin 8) k.val (k0_off4_eq k) n _ rfl)
    (fun k n => chunk_apply arg1 harg1 x0 _ _ (1 : Fin 3) (1 : Fin 8) k.val (k0_off5_eq k) n _ rfl)
    (fun k n => chunk_apply arg1 harg1 x0 _ _ (2 : Fin 3) (1 : Fin 8) k.val (k0_off6_eq k) n _ rfl)
    (fun k => (st_k0_t2_succ (F := Ideal) Variants.none c none i arg1 harg1 arg2 harg2 arg3 harg3 arg4 harg4 arg5 harg5 arg6 harg6 v0 v2 v4 v6 v9 v11 (harg1.unread x0) k0_pay16 k).trans
      (trip_t2 Variants.none c none i arg1 harg1 arg2 harg2 arg3 harg3 arg4 harg4 arg5 harg5 arg6 harg6 v0 v2 v4 v6 v9 v11 (harg1.unread x0) k _))
    (fun e => zero_row _ rfl e) e

/-- The loop of batch row 2. -/
theorem row_t3 (c : Dev nD) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v0 : Vec Ideal S64x1 .f32) (v2 : Vec Ideal S64x1 .f32) (v4 : Vec Ideal S64x1 .f32) (v6 : Vec Ideal S64x1 .f32) (v9 : Vec Ideal S64x1 .f32) (v11 : Vec Ideal S64x1 .f32) (x0 : Vec Ideal S3x8x4096 .f32) (e : Fin 64) :
    st_k0_t3 (F := Ideal) Variants.none c none i arg1 harg1 arg2 harg2 arg3 harg3 arg4 harg4 arg5 harg5 arg6 harg6 v0 v2 v4 v6 v9 v11 (harg1.unread x0) k0_pay18 k0_t3_loop.trips (ix2 (0 : Fin 1) e)
      = ∑ p : Fin 4096, rowTerm x0 (k0_pay10 v0) (k0_pay11 v2) (k0_pay12 v4 v6) (k0_pay13 v9 v11) (2 : Fin 8) e p :=
  row_loop k0_t3_loop.trips (by decide +kernel)
    (fun k => st_k0_t3 (F := Ideal) Variants.none c none i arg1 harg1 arg2 harg2 arg3 harg3 arg4 harg4 arg5 harg5 arg6 harg6 v0 v2 v4 v6 v9 v11 (harg1.unread x0) k0_pay18 k)
    (k0_pay10 v0) (k0_pay11 v2) (k0_pay12 v4 v6) (k0_pay13 v9 v11) x0 (2 : Fin 8)
    (fun k => chunkAt arg1 (k0_off7 k) (Gen.k0_off7_inb k) (harg1.unread x0))
    (fun k => chunkAt arg1 (k0_off8 k) (Gen.k0_off8_inb k) (harg1.unread x0))
    (fun k => chunkAt arg1 (k0_off9 k) (Gen.k0_off9_inb k) (harg1.unread x0))
    (fun k n => ⟨512 * k.val + n.val, by have := k.isLt; have := k0_t3_abs.2.1; have := n.isLt; omega⟩) (fun k n => rfl)
    (fun k n => chunk_apply arg1 harg1 x0 _ _ (0 : Fin 3) (2 : Fin 8) k.val (k0_off7_eq k) n _ rfl)
    (fun k n => chunk_apply arg1 harg1 x0 _ _ (1 : Fin 3) (2 : Fin 8) k.val (k0_off8_eq k) n _ rfl)
    (fun k n => chunk_apply arg1 harg1 x0 _ _ (2 : Fin 3) (2 : Fin 8) k.val (k0_off9_eq k) n _ rfl)
    (fun k => (st_k0_t3_succ (F := Ideal) Variants.none c none i arg1 harg1 arg2 harg2 arg3 harg3 arg4 harg4 arg5 harg5 arg6 harg6 v0 v2 v4 v6 v9 v11 (harg1.unread x0) k0_pay18 k).trans
      (trip_t3 Variants.none c none i arg1 harg1 arg2 harg2 arg3 harg3 arg4 harg4 arg5 harg5 arg6 harg6 v0 v2 v4 v6 v9 v11 (harg1.unread x0) k _))
    (fun e => zero_row _ rfl e) e

/-- The loop of batch row 3. -/
theorem row_t4 (c : Dev nD) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v0 : Vec Ideal S64x1 .f32) (v2 : Vec Ideal S64x1 .f32) (v4 : Vec Ideal S64x1 .f32) (v6 : Vec Ideal S64x1 .f32) (v9 : Vec Ideal S64x1 .f32) (v11 : Vec Ideal S64x1 .f32) (x0 : Vec Ideal S3x8x4096 .f32) (e : Fin 64) :
    st_k0_t4 (F := Ideal) Variants.none c none i arg1 harg1 arg2 harg2 arg3 harg3 arg4 harg4 arg5 harg5 arg6 harg6 v0 v2 v4 v6 v9 v11 (harg1.unread x0) k0_pay20 k0_t4_loop.trips (ix2 (0 : Fin 1) e)
      = ∑ p : Fin 4096, rowTerm x0 (k0_pay10 v0) (k0_pay11 v2) (k0_pay12 v4 v6) (k0_pay13 v9 v11) (3 : Fin 8) e p :=
  row_loop k0_t4_loop.trips (by decide +kernel)
    (fun k => st_k0_t4 (F := Ideal) Variants.none c none i arg1 harg1 arg2 harg2 arg3 harg3 arg4 harg4 arg5 harg5 arg6 harg6 v0 v2 v4 v6 v9 v11 (harg1.unread x0) k0_pay20 k)
    (k0_pay10 v0) (k0_pay11 v2) (k0_pay12 v4 v6) (k0_pay13 v9 v11) x0 (3 : Fin 8)
    (fun k => chunkAt arg1 (k0_off10 k) (Gen.k0_off10_inb k) (harg1.unread x0))
    (fun k => chunkAt arg1 (k0_off11 k) (Gen.k0_off11_inb k) (harg1.unread x0))
    (fun k => chunkAt arg1 (k0_off12 k) (Gen.k0_off12_inb k) (harg1.unread x0))
    (fun k n => ⟨512 * k.val + n.val, by have := k.isLt; have := k0_t4_abs.2.1; have := n.isLt; omega⟩) (fun k n => rfl)
    (fun k n => chunk_apply arg1 harg1 x0 _ _ (0 : Fin 3) (3 : Fin 8) k.val (k0_off10_eq k) n _ rfl)
    (fun k n => chunk_apply arg1 harg1 x0 _ _ (1 : Fin 3) (3 : Fin 8) k.val (k0_off11_eq k) n _ rfl)
    (fun k n => chunk_apply arg1 harg1 x0 _ _ (2 : Fin 3) (3 : Fin 8) k.val (k0_off12_eq k) n _ rfl)
    (fun k => (st_k0_t4_succ (F := Ideal) Variants.none c none i arg1 harg1 arg2 harg2 arg3 harg3 arg4 harg4 arg5 harg5 arg6 harg6 v0 v2 v4 v6 v9 v11 (harg1.unread x0) k0_pay20 k).trans
      (trip_t4 Variants.none c none i arg1 harg1 arg2 harg2 arg3 harg3 arg4 harg4 arg5 harg5 arg6 harg6 v0 v2 v4 v6 v9 v11 (harg1.unread x0) k _))
    (fun e => zero_row _ rfl e) e

/-- The loop of batch row 4. -/
theorem row_t5 (c : Dev nD) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v1 : FVec Ideal S64x1 .f32) (v3 : FVec Ideal S64x1 .f32) (v8 : FVec Ideal S64x1 .f32) (v13 : FVec Ideal S64x1 .f32) (x0 : Vec Ideal S3x8x4096 .f32) (e : Fin 64) :
    st_k0_t5 (F := Ideal) Variants.none c none i arg1 harg1 arg2 harg2 arg3 harg3 arg4 harg4 arg5 harg5 arg6 harg6 v1 v3 v8 v13 (harg1.unread x0) (k0_pay1 (FloatOps.ofBits .f32 0x00000000#32)) k0_t5_loop.trips (ix2 (0 : Fin 1) e)
      = ∑ p : Fin 4096, rowTerm x0 v1 v3 v8 v13 (4 : Fin 8) e p :=
  row_loop k0_t5_loop.trips (by decide +kernel)
    (fun k => st_k0_t5 (F := Ideal) Variants.none c none i arg1 harg1 arg2 harg2 arg3 harg3 arg4 harg4 arg5 harg5 arg6 harg6 v1 v3 v8 v13 (harg1.unread x0) (k0_pay1 (FloatOps.ofBits .f32 0x00000000#32)) k)
    v1 v3 v8 v13 x0 (4 : Fin 8)
    (fun k => chunkAt arg1 (k0_off13 k) (Gen.k0_off13_inb k) (harg1.unread x0))
    (fun k => chunkAt arg1 (k0_off14 k) (Gen.k0_off14_inb k) (harg1.unread x0))
    (fun k => chunkAt arg1 (k0_off15 k) (Gen.k0_off15_inb k) (harg1.unread x0))
    (fun k n => ⟨512 * k.val + n.val, by have := k.isLt; have := k0_t5_abs.2.1; have := n.isLt; omega⟩) (fun k n => rfl)
    (fun k n => chunk_apply arg1 harg1 x0 _ _ (0 : Fin 3) (4 : Fin 8) k.val (k0_off13_eq k) n _ rfl)
    (fun k n => chunk_apply arg1 harg1 x0 _ _ (1 : Fin 3) (4 : Fin 8) k.val (k0_off14_eq k) n _ rfl)
    (fun k n => chunk_apply arg1 harg1 x0 _ _ (2 : Fin 3) (4 : Fin 8) k.val (k0_off15_eq k) n _ rfl)
    (fun k => (st_k0_t5_succ (F := Ideal) Variants.none c none i arg1 harg1 arg2 harg2 arg3 harg3 arg4 harg4 arg5 harg5 arg6 harg6 v1 v3 v8 v13 (harg1.unread x0) (k0_pay1 (FloatOps.ofBits .f32 0x00000000#32)) k).trans
      (trip_t5 Variants.none c none i arg1 harg1 arg2 harg2 arg3 harg3 arg4 harg4 arg5 harg5 arg6 harg6 v1 v3 v8 v13 (harg1.unread x0) k _))
    (fun e => zero_row _ rfl e) e

/-- The loop of batch row 5. -/
theorem row_t6 (c : Dev nD) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v1 : FVec Ideal S64x1 .f32) (v3 : FVec Ideal S64x1 .f32) (v8 : FVec Ideal S64x1 .f32) (v13 : FVec Ideal S64x1 .f32) (x0 : Vec Ideal S3x8x4096 .f32) (e : Fin 64) :
    st_k0_t6 (F := Ideal) Variants.none c none i arg1 harg1 arg2 harg2 arg3 harg3 arg4 harg4 arg5 harg5 arg6 harg6 v1 v3 v8 v13 (harg1.unread x0) k0_pay3 k0_t6_loop.trips (ix2 (0 : Fin 1) e)
      = ∑ p : Fin 4096, rowTerm x0 v1 v3 v8 v13 (5 : Fin 8) e p :=
  row_loop k0_t6_loop.trips (by decide +kernel)
    (fun k => st_k0_t6 (F := Ideal) Variants.none c none i arg1 harg1 arg2 harg2 arg3 harg3 arg4 harg4 arg5 harg5 arg6 harg6 v1 v3 v8 v13 (harg1.unread x0) k0_pay3 k)
    v1 v3 v8 v13 x0 (5 : Fin 8)
    (fun k => chunkAt arg1 (k0_off16 k) (Gen.k0_off16_inb k) (harg1.unread x0))
    (fun k => chunkAt arg1 (k0_off17 k) (Gen.k0_off17_inb k) (harg1.unread x0))
    (fun k => chunkAt arg1 (k0_off18 k) (Gen.k0_off18_inb k) (harg1.unread x0))
    (fun k n => ⟨512 * k.val + n.val, by have := k.isLt; have := k0_t6_abs.2.1; have := n.isLt; omega⟩) (fun k n => rfl)
    (fun k n => chunk_apply arg1 harg1 x0 _ _ (0 : Fin 3) (5 : Fin 8) k.val (k0_off16_eq k) n _ rfl)
    (fun k n => chunk_apply arg1 harg1 x0 _ _ (1 : Fin 3) (5 : Fin 8) k.val (k0_off17_eq k) n _ rfl)
    (fun k n => chunk_apply arg1 harg1 x0 _ _ (2 : Fin 3) (5 : Fin 8) k.val (k0_off18_eq k) n _ rfl)
    (fun k => (st_k0_t6_succ (F := Ideal) Variants.none c none i arg1 harg1 arg2 harg2 arg3 harg3 arg4 harg4 arg5 harg5 arg6 harg6 v1 v3 v8 v13 (harg1.unread x0) k0_pay3 k).trans
      (trip_t6 Variants.none c none i arg1 harg1 arg2 harg2 arg3 harg3 arg4 harg4 arg5 harg5 arg6 harg6 v1 v3 v8 v13 (harg1.unread x0) k _))
    (fun e => zero_row _ rfl e) e

/-- The loop of batch row 6. -/
theorem row_t7 (c : Dev nD) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v1 : FVec Ideal S64x1 .f32) (v3 : FVec Ideal S64x1 .f32) (v8 : FVec Ideal S64x1 .f32) (v13 : FVec Ideal S64x1 .f32) (x0 : Vec Ideal S3x8x4096 .f32) (e : Fin 64) :
    st_k0_t7 (F := Ideal) Variants.none c none i arg1 harg1 arg2 harg2 arg3 harg3 arg4 harg4 arg5 harg5 arg6 harg6 v1 v3 v8 v13 (harg1.unread x0) k0_pay5 k0_t7_loop.trips (ix2 (0 : Fin 1) e)
      = ∑ p : Fin 4096, rowTerm x0 v1 v3 v8 v13 (6 : Fin 8) e p :=
  row_loop k0_t7_loop.trips (by decide +kernel)
    (fun k => st_k0_t7 (F := Ideal) Variants.none c none i arg1 harg1 arg2 harg2 arg3 harg3 arg4 harg4 arg5 harg5 arg6 harg6 v1 v3 v8 v13 (harg1.unread x0) k0_pay5 k)
    v1 v3 v8 v13 x0 (6 : Fin 8)
    (fun k => chunkAt arg1 (k0_off19 k) (Gen.k0_off19_inb k) (harg1.unread x0))
    (fun k => chunkAt arg1 (k0_off20 k) (Gen.k0_off20_inb k) (harg1.unread x0))
    (fun k => chunkAt arg1 (k0_off21 k) (Gen.k0_off21_inb k) (harg1.unread x0))
    (fun k n => ⟨512 * k.val + n.val, by have := k.isLt; have := k0_t7_abs.2.1; have := n.isLt; omega⟩) (fun k n => rfl)
    (fun k n => chunk_apply arg1 harg1 x0 _ _ (0 : Fin 3) (6 : Fin 8) k.val (k0_off19_eq k) n _ rfl)
    (fun k n => chunk_apply arg1 harg1 x0 _ _ (1 : Fin 3) (6 : Fin 8) k.val (k0_off20_eq k) n _ rfl)
    (fun k n => chunk_apply arg1 harg1 x0 _ _ (2 : Fin 3) (6 : Fin 8) k.val (k0_off21_eq k) n _ rfl)
    (fun k => (st_k0_t7_succ (F := Ideal) Variants.none c none i arg1 harg1 arg2 harg2 arg3 harg3 arg4 harg4 arg5 harg5 arg6 harg6 v1 v3 v8 v13 (harg1.unread x0) k0_pay5 k).trans
      (trip_t7 Variants.none c none i arg1 harg1 arg2 harg2 arg3 harg3 arg4 harg4 arg5 harg5 arg6 harg6 v1 v3 v8 v13 (harg1.unread x0) k _))
    (fun e => zero_row _ rfl e) e

/-- The loop of batch row 7. -/
theorem row_t8 (c : Dev nD) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole) (v1 : FVec Ideal S64x1 .f32) (v3 : FVec Ideal S64x1 .f32) (v8 : FVec Ideal S64x1 .f32) (v13 : FVec Ideal S64x1 .f32) (x0 : Vec Ideal S3x8x4096 .f32) (e : Fin 64) :
    st_k0_t8 (F := Ideal) Variants.none c none i arg1 harg1 arg2 harg2 arg3 harg3 arg4 harg4 arg5 harg5 arg6 harg6 v1 v3 v8 v13 (harg1.unread x0) k0_pay7 k0_t8_loop.trips (ix2 (0 : Fin 1) e)
      = ∑ p : Fin 4096, rowTerm x0 v1 v3 v8 v13 (7 : Fin 8) e p :=
  row_loop k0_t8_loop.trips (by decide +kernel)
    (fun k => st_k0_t8 (F := Ideal) Variants.none c none i arg1 harg1 arg2 harg2 arg3 harg3 arg4 harg4 arg5 harg5 arg6 harg6 v1 v3 v8 v13 (harg1.unread x0) k0_pay7 k)
    v1 v3 v8 v13 x0 (7 : Fin 8)
    (fun k => chunkAt arg1 (k0_off22 k) (Gen.k0_off22_inb k) (harg1.unread x0))
    (fun k => chunkAt arg1 (k0_off23 k) (Gen.k0_off23_inb k) (harg1.unread x0))
    (fun k => chunkAt arg1 (k0_off24 k) (Gen.k0_off24_inb k) (harg1.unread x0))
    (fun k n => ⟨512 * k.val + n.val, by have := k.isLt; have := k0_t8_abs.2.1; have := n.isLt; omega⟩) (fun k n => rfl)
    (fun k n => chunk_apply arg1 harg1 x0 _ _ (0 : Fin 3) (7 : Fin 8) k.val (k0_off22_eq k) n _ rfl)
    (fun k n => chunk_apply arg1 harg1 x0 _ _ (1 : Fin 3) (7 : Fin 8) k.val (k0_off23_eq k) n _ rfl)
    (fun k n => chunk_apply arg1 harg1 x0 _ _ (2 : Fin 3) (7 : Fin 8) k.val (k0_off24_eq k) n _ rfl)
    (fun k => (st_k0_t8_succ (F := Ideal) Variants.none c none i arg1 harg1 arg2 harg2 arg3 harg3 arg4 harg4 arg5 harg5 arg6 harg6 v1 v3 v8 v13 (harg1.unread x0) k0_pay7 k).trans
      (trip_t8 Variants.none c none i arg1 harg1 arg2 harg2 arg3 harg3 arg4 harg4 arg5 harg5 arg6 harg6 v1 v3 v8 v13 (harg1.unread x0) k _))
    (fun e => zero_row _ rfl e) e

end Cert.KernelIdeal.RbfValue

end
-- ==== Proof.Block.lean ====
/-
  The output block the body leaves, read at an entry.
-/
import proofs.«161177_j34883724378859_2_alg».proof.Proof.Rows

set_option maxRecDepth 16384

noncomputable section

namespace Cert.KernelIdeal.RbfValue

open Cert.KernelIdeal Cert.KernelIdeal.Gen Idealize.ShloMosaic Idealize.ShloMosaic.TcCoe Idealize.SL.Sem
open Idealize.ShloMosaic.ValueIdx Idealize.ShloMosaic.Tactic

/-- One of eight, by its number. -/
def pick8 {α : Type} (v0 v1 v2 v3 v4 v5 v6 v7 : α) : Fin 8 → α
  | ⟨0, _⟩ => v0 | ⟨1, _⟩ => v1 | ⟨2, _⟩ => v2 | ⟨3, _⟩ => v3 | ⟨4, _⟩ => v4 | ⟨5, _⟩ => v5 | ⟨6, _⟩ => v6 | ⟨7, _⟩ => v7

/-- Eight `[1,64]` rows stacked into `[8,64]` read, at `(r, e)`, row `r` at `e`. -/
theorem stack_apply (v0 v1 v2 v3 v4 v5 v6 v7 : FVec Ideal S1x64 .f32) (r : Fin 8) (e : Fin 64) :
    k0_pay9 v0 v1 v2 v3 v4 v5 v6 v7 (ix2 r e) = pick8 v0 v1 v2 v3 v4 v5 v6 v7 r (ix2 (0 : Fin 1) e) := by
  unfold k0_pay9
  match r with
  | ⟨0, _⟩ =>
    refine concatenate_apply_piece (0 : Fin 2) [⟨S1x64, v0⟩, ⟨S1x64, v1⟩, ⟨S1x64, v2⟩, ⟨S1x64, v3⟩, ⟨S1x64, v4⟩, ⟨S1x64, v5⟩, ⟨S1x64, v6⟩, ⟨S1x64, v7⟩] _
      (ix2 (⟨0, by omega⟩ : Fin 8) e) 0 (by simp) S1x64 v0 rfl rfl 0 ?_ (ix2 (0 : Fin 1) e) ?_ rfl
    · simp
    · intro b hb
      match b with
      | ⟨0, _⟩ => exact absurd rfl hb
      | ⟨1, _⟩ => rfl
  | ⟨1, _⟩ =>
    refine concatenate_apply_piece (0 : Fin 2) [⟨S1x64, v0⟩, ⟨S1x64, v1⟩, ⟨S1x64, v2⟩, ⟨S1x64, v3⟩, ⟨S1x64, v4⟩, ⟨S1x64, v5⟩, ⟨S1x64, v6⟩, ⟨S1x64, v7⟩] _
      (ix2 (⟨1, by omega⟩ : Fin 8) e) 1 (by simp) S1x64 v1 rfl rfl 1 ?_ (ix2 (0 : Fin 1) e) ?_ rfl
    · simp
    · intro b hb
      match b with
      | ⟨0, _⟩ => exact absurd rfl hb
      | ⟨1, _⟩ => rfl
  | ⟨2, _⟩ =>
    refine concatenate_apply_piece (0 : Fin 2) [⟨S1x64, v0⟩, ⟨S1x64, v1⟩, ⟨S1x64, v2⟩, ⟨S1x64, v3⟩, ⟨S1x64, v4⟩, ⟨S1x64, v5⟩, ⟨S1x64, v6⟩, ⟨S1x64, v7⟩] _
      (ix2 (⟨2, by omega⟩ : Fin 8) e) 2 (by simp) S1x64 v2 rfl rfl 2 ?_ (ix2 (0 : Fin 1) e) ?_ rfl
    · simp
    · intro b hb
      match b with
      | ⟨0, _⟩ => exact absurd rfl hb
      | ⟨1, _⟩ => rfl
  | ⟨3, _⟩ =>
    refine concatenate_apply_piece (0 : Fin 2) [⟨S1x64, v0⟩, ⟨S1x64, v1⟩, ⟨S1x64, v2⟩, ⟨S1x64, v3⟩, ⟨S1x64, v4⟩, ⟨S1x64, v5⟩, ⟨S1x64, v6⟩, ⟨S1x64, v7⟩] _
      (ix2 (⟨3, by omega⟩ : Fin 8) e) 3 (by simp) S1x64 v3 rfl rfl 3 ?_ (ix2 (0 : Fin 1) e) ?_ rfl
    · simp
    · intro b hb
      match b with
      | ⟨0, _⟩ => exact absurd rfl hb
      | ⟨1, _⟩ => rfl
  | ⟨4, _⟩ =>
    refine concatenate_apply_piece (0 : Fin 2) [⟨S1x64, v0⟩, ⟨S1x64, v1⟩, ⟨S1x64, v2⟩, ⟨S1x64, v3⟩, ⟨S1x64, v4⟩, ⟨S1x64, v5⟩, ⟨S1x64, v6⟩, ⟨S1x64, v7⟩] _
      (ix2 (⟨4, by omega⟩ : Fin 8) e) 4 (by simp) S1x64 v4 rfl rfl 4 ?_ (ix2 (0 : Fin 1) e) ?_ rfl
    · simp
    · intro b hb
      match b with
      | ⟨0, _⟩ => exact absurd rfl hb
      | ⟨1, _⟩ => rfl
  | ⟨5, _⟩ =>
    refine concatenate_apply_piece (0 : Fin 2) [⟨S1x64, v0⟩, ⟨S1x64, v1⟩, ⟨S1x64, v2⟩, ⟨S1x64, v3⟩, ⟨S1x64, v4⟩, ⟨S1x64, v5⟩, ⟨S1x64, v6⟩, ⟨S1x64, v7⟩] _
      (ix2 (⟨5, by omega⟩ : Fin 8) e) 5 (by simp) S1x64 v5 rfl rfl 5 ?_ (ix2 (0 : Fin 1) e) ?_ rfl
    · simp
    · intro b hb
      match b with
      | ⟨0, _⟩ => exact absurd rfl hb
      | ⟨1, _⟩ => rfl
  | ⟨6, _⟩ =>
    refine concatenate_apply_piece (0 : Fin 2) [⟨S1x64, v0⟩, ⟨S1x64, v1⟩, ⟨S1x64, v2⟩, ⟨S1x64, v3⟩, ⟨S1x64, v4⟩, ⟨S1x64, v5⟩, ⟨S1x64, v6⟩, ⟨S1x64, v7⟩] _
      (ix2 (⟨6, by omega⟩ : Fin 8) e) 6 (by simp) S1x64 v6 rfl rfl 6 ?_ (ix2 (0 : Fin 1) e) ?_ rfl
    · simp
    · intro b hb
      match b with
      | ⟨0, _⟩ => exact absurd rfl hb
      | ⟨1, _⟩ => rfl
  | ⟨7, _⟩ =>
    refine concatenate_apply_piece (0 : Fin 2) [⟨S1x64, v0⟩, ⟨S1x64, v1⟩, ⟨S1x64, v2⟩, ⟨S1x64, v3⟩, ⟨S1x64, v4⟩, ⟨S1x64, v5⟩, ⟨S1x64, v6⟩, ⟨S1x64, v7⟩] _
      (ix2 (⟨7, by omega⟩ : Fin 8) e) 7 (by simp) S1x64 v7 rfl rfl 7 ?_ (ix2 (0 : Fin 1) e) ?_ rfl
    · simp
    · intro b hb
      match b with
      | ⟨0, _⟩ => exact absurd rfl hb
      | ⟨1, _⟩ => rfl

/-- THE BODY'S BLOCK. On staged blocks holding `x0` (the `[3,8,4096]` samples), `x1 x2` (the two centre columns) and
    `x3 x4` (the two sharpness columns) the body leaves in the `[8,64]` output block, at `(r, e)`, the sum over the 4096
    samples of batch row `r`'s summand at centre `e`, the sharpness columns squared. -/
theorem out_apply (c : Dev nD) (i : grid0.Coords) (arg1 : Memref sig .tc .vmem S3x8x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S64x1 .f32) (harg5 : arg5.IsWhole) (arg6 : Memref sig .tc .vmem S8x64 .f32) (harg6 : arg6.IsWhole)
    (x0 : Vec Ideal S3x8x4096 .f32) (x1 x2 x3 x4 : Vec Ideal S64x1 .f32) (r : Fin 8) (e : Fin 64) :
    out0_A_5 (F := Ideal) c i arg1 harg1 arg2 harg2 arg3 harg3 arg4 harg4 arg5 harg5 arg6 harg6 x0 x1 x2 x3 x4 (ix2 r e)
      = ∑ p : Fin 4096, rowTerm x0 (k0_pay10 x1) (k0_pay11 x2) (k0_pay12 x3 x3) (k0_pay13 x4 x4) r e p := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero hz2]
  simp only [View.readAt_eq_ld, harg2.read_unread, harg3.read_unread, harg4.read_unread, harg5.read_unread,
    View.ld_unit_zero (S := S64x1) hz2]
  refine (stack_apply _ _ _ _ _ _ _ _ r e).trans ?_
  match r with
  | ⟨0, _⟩ => exact row_t1 c i arg1 harg1 arg2 harg2 arg3 harg3 arg4 harg4 arg5 harg5 arg6 harg6 x1 x2 x3 x3 x4 x4 x0 e
  | ⟨1, _⟩ => exact row_t2 c i arg1 harg1 arg2 harg2 arg3 harg3 arg4 harg4 arg5 harg5 arg6 harg6 x1 x2 x3 x3 x4 x4 x0 e
  | ⟨2, _⟩ => exact row_t3 c i arg1 harg1 arg2 harg2 arg3 harg3 arg4 harg4 arg5 harg5 arg6 harg6 x1 x2 x3 x3 x4 x4 x0 e
  | ⟨3, _⟩ => exact row_t4 c i arg1 harg1 arg2 harg2 arg3 harg3 arg4 harg4 arg5 harg5 arg6 harg6 x1 x2 x3 x3 x4 x4 x0 e
  | ⟨4, _⟩ => exact row_t5 c i arg1 harg1 arg2 harg2 arg3 harg3 arg4 harg4 arg5 harg5 arg6 harg6 (k0_pay10 x1) (k0_pay11 x2) (k0_pay12 x3 x3) (k0_pay13 x4 x4) x0 e
  | ⟨5, _⟩ => exact row_t6 c i arg1 harg1 arg2 harg2 arg3 harg3 arg4 harg4 arg5 harg5 arg6 harg6 (k0_pay10 x1) (k0_pay11 x2) (k0_pay12 x3 x3) (k0_pay13 x4 x4) x0 e
  | ⟨6, _⟩ => exact row_t7 c i arg1 harg1 arg2 harg2 arg3 harg3 arg4 harg4 arg5 harg5 arg6 harg6 (k0_pay10 x1) (k0_pay11 x2) (k0_pay12 x3 x3) (k0_pay13 x4 x4) x0 e
  | ⟨7, _⟩ => exact row_t8 c i arg1 harg1 arg2 harg2 arg3 harg3 arg4 harg4 arg5 harg5 arg6 harg6 (k0_pay10 x1) (k0_pay11 x2) (k0_pay12 x3 x3) (k0_pay13 x4 x4) x0 e

end Cert.KernelIdeal.RbfValue

end
-- ==== Proof.RbfSpec.lean ====
/-
  The radial-basis sum both programs compute, as one function of the argument arrays.

  For a batch row `b`, a centre `e` and a sample `n` the exponent is the weighted squared distance
  `(c_e0 - x_bn0)² · s_e0² + (c_e1 - x_bn1)² · s_e1² + x_bn2²`, and the result at `(b, e)` is the sum over the 4096
  samples of `exp` of minus the exponent. Everything is read on the extended reals; the products are grouped as
  `(d · d) · (s · s)`, which is how both programs group them, so no law beyond the commutativity and associativity of
  the sum is needed to join them.
-/
import Idealize.ShloMosaic.PureOps.Ideal
import Idealize.ShloMosaic.Lib.ValueIdx

noncomputable section

namespace Cert.Rbf

open Idealize.ShloMosaic Idealize.ShloMosaic.ValueIdx

/-- The samples: 64 batch rows of 4096 points with three channels. -/
abbrev XArr : Type := (⟨3, ![64, 4096, 3]⟩ : Shape).Idx → EReal
/-- The centres, and the sharpnesses: 64 rows of two entries. -/
abbrev PArr : Type := (⟨2, ![64, 2]⟩ : Shape).Idx → EReal

/-- One weighted squared difference: `(c - x) · (c - x) · (s · s)`. -/
def term (c x s : EReal) : EReal := (c - x) * (c - x) * (s * s)

/-- The exponent at batch row `b`, centre `e`, sample `n`. -/
def quad (x : XArr) (c s : PArr) (b e : Fin 64) (n : Fin 4096) : EReal :=
  term (c (ix2 e (0 : Fin 2))) (x (ix3 b n (0 : Fin 3))) (s (ix2 e (0 : Fin 2)))
    + term (c (ix2 e (1 : Fin 2))) (x (ix3 b n (1 : Fin 3))) (s (ix2 e (1 : Fin 2)))
    + x (ix3 b n (2 : Fin 3)) * x (ix3 b n (2 : Fin 3))

/-- The summand: `exp (-quad)`. -/
def bump (x : XArr) (c s : PArr) (b e : Fin 64) (n : Fin 4096) : EReal := Ideal.exp (-(quad x c s b e n))

/-- The result array: at `(b, e)` the sum of the 4096 summands. -/
def rbf (x : XArr) (c s : PArr) : (⟨2, ![64, 64]⟩ : Shape).Idx → EReal :=
  fun i => ∑ n : Fin 4096, bump x c s (i 0) (i 1) n

theorem rbf_apply (x : XArr) (c s : PArr) (b e : Fin 64) : rbf x c s (ix2 b e) = ∑ n : Fin 4096, bump x c s b e n := rfl

end Cert.Rbf

end
-- ==== Proof.Final.lean ====
/-
  From the blocks to the array: the kernel's result array is the radial-basis sum of the argument arrays.

  Grid point `t` stages batch rows `8t … 8t+7` of the samples (all three channels, moved to the front by the host's
  transpose), the whole centre and sharpness columns (the host's four column slices), and writes back rows
  `8t … 8t+7` of the `[64,64]` result. So what point `t` writes at `(r, e)` is the specification at `(8t + r, e)`, the eight
  points' blocks tile the result array, and the array ends holding the specification.
-/
import proofs.«161177_j34883724378859_2_alg».proof.Proof.Gen.KernelIdeal.Value
import proofs.«161177_j34883724378859_2_alg».proof.Proof.Block
import proofs.«161177_j34883724378859_2_alg».proof.Proof.RbfSpec
import Idealize.ShloMosaic.Lib.StableHlo.Run
import Idealize.ShloMosaic.Lib.Pipeline.Value

set_option maxRecDepth 16384

noncomputable section

namespace Cert.KernelIdeal.RbfValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The specification at the launch contents of the three arguments, as contents of the result array. -/
abbrev result (c : Dev nD) : Buf (Elt Ideal) ((c : Thread nD τ).loc main_v5) :=
  Cert.Rbf.rbf (m ((c : Thread nD τ).loc main_arg0)) (m ((c : Thread nD τ).loc main_arg1)) (m ((c : Thread nD τ).loc main_arg2))

/-! ## The arrays the region finds -/

theorem V_v0 (c : Dev nD) : (V m c main_v0 : S3x64x4096.Idx → EReal)
    = transpose S3x64x4096 [2, 0, 1] (m ((c : Thread nD τ).loc main_arg0)) transposes_S64x4096x3_S3x64x4096_2_0_1 := by
  dsimp only [Gen.V, Gen.hostOps0]; after_results

theorem V_v1 (c : Dev nD) : (V m c main_v1 : S64x1.Idx → EReal)
    = extractStridedSlice S64x1 ![0, 0] (m ((c : Thread nD τ).loc main_arg1)) slices_S64x2_S64x1_0_0 := by
  dsimp only [Gen.V, Gen.hostOps0]; after_results

theorem V_v2 (c : Dev nD) : (V m c main_v2 : S64x1.Idx → EReal)
    = extractStridedSlice S64x1 ![0, 1] (m ((c : Thread nD τ).loc main_arg1)) slices_S64x2_S64x1_0_1 := by
  dsimp only [Gen.V, Gen.hostOps0]; after_results

theorem V_v3 (c : Dev nD) : (V m c main_v3 : S64x1.Idx → EReal)
    = extractStridedSlice S64x1 ![0, 0] (m ((c : Thread nD τ).loc main_arg2)) slices_S64x2_S64x1_0_0 := by
  dsimp only [Gen.V, Gen.hostOps0]; after_results

theorem V_v4 (c : Dev nD) : (V m c main_v4 : S64x1.Idx → EReal)
    = extractStridedSlice S64x1 ![0, 1] (m ((c : Thread nD τ).loc main_arg2)) slices_S64x2_S64x1_0_1 := by
  dsimp only [Gen.V, Gen.hostOps0]; after_results

/-! ## The windows' block indices, over the eight grid points -/

theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The staged blocks, read at an entry -/

/-- The samples' block at point `t`: channel `ch`, row `r`, sample `p` is the sample array at `(8t + r, p, ch)`. -/
theorem iblk0_apply (c : Dev nD) (t : Fin cfg0.N) (ch : Fin 3) (r : Fin 8) (p : Fin 4096) (b : Fin 64)
    (hb : b.val = 8 * t.val + r.val) :
    (iblk m c 0 t : S3x8x4096.Idx → EReal) (ix3 ch r p) = m ((c : Thread nD τ).loc main_arg0) (ix3 b p ch) := by
  obtain ⟨e0, e1, e2, -⟩ := idx_facts t
  show (V m c main_v0 : S3x64x4096.Idx → EReal) (((cfg0.win 0).blk t).view.emb (ix3 ch r p)) = _
  rw [V_v0]
  refine transpose_apply [2, 0, 1] _ _ _ (ix3 b p ch) (fun a => ?_)
  match a with
  | ⟨0, _⟩ => show ch.val = win0_0.index t (0 : Fin 3) * 3 + 1 * ch.val; omega
  | ⟨1, _⟩ => show b.val = win0_0.index t (1 : Fin 3) * 8 + 1 * r.val; omega
  | ⟨2, _⟩ => show p.val = win0_0.index t (2 : Fin 3) * 4096 + 1 * p.val; omega

/-- A column block is the whole column of its argument: centre or sharpness `e`, entry `k`. -/
theorem col_apply_of (X : S64x1.Idx → EReal) (A : S64x2.Idx → EReal) (k : Fin 2) (h : S64x2.Slices ![0, k.val] S64x1)
    (hX : X = extractStridedSlice S64x1 ![0, k.val] A h) (i0 i1 : ℕ) (h0 : i0 = 0) (h1 : i1 = 0) (j : S64x1.Idx) (e : Fin 64)
    (hj0 : (j 0).val = i0 * 64 + 1 * e.val) (hj1 : (j 1).val = i1 * 1 + 1 * 0) :
    X j = A (ix2 e k) := by
  subst hX h0 h1
  refine extractStridedSlice_apply _ _ _ _ (ix2 e k) (fun a => ?_)
  match a with
  | ⟨0, _⟩ => show e.val = 0 + (j 0).val; omega
  | ⟨1, _⟩ => show k.val = k.val + (j 1).val; omega

theorem iblk1_apply (c : Dev nD) (t : Fin cfg0.N) (e : Fin 64) :
    (iblk m c 1 t : S64x1.Idx → EReal) (ix2 e (0 : Fin 1)) = m ((c : Thread nD τ).loc main_arg1) (ix2 e (0 : Fin 2)) := by
  obtain ⟨-, -, -, e0, e1, -⟩ := idx_facts t
  exact col_apply_of _ _ (0 : Fin 2) slices_S64x2_S64x1_0_0 (V_v1 m c) _ _ e0 e1 (((cfg0.win 1).blk t).view.emb (ix2 e (0 : Fin 1))) e rfl rfl

theorem iblk2_apply (c : Dev nD) (t : Fin cfg0.N) (e : Fin 64) :
    (iblk m c 2 t : S64x1.Idx → EReal) (ix2 e (0 : Fin 1)) = m ((c : Thread nD τ).loc main_arg1) (ix2 e (1 : Fin 2)) := by
  obtain ⟨-, -, -, -, -, e0, e1, -⟩ := idx_facts t
  exact col_apply_of _ _ (1 : Fin 2) slices_S64x2_S64x1_0_1 (V_v2 m c) _ _ e0 e1 (((cfg0.win 2).blk t).view.emb (ix2 e (0 : Fin 1))) e rfl rfl

theorem iblk3_apply (c : Dev nD) (t : Fin cfg0.N) (e : Fin 64) :
    (iblk m c 3 t : S64x1.Idx → EReal) (ix2 e (0 : Fin 1)) = m ((c : Thread nD τ).loc main_arg2) (ix2 e (0 : Fin 2)) := by
  obtain ⟨-, -, -, -, -, -, -, e0, e1, -⟩ := idx_facts t
  exact col_apply_of _ _ (0 : Fin 2) slices_S64x2_S64x1_0_0 (V_v3 m c) _ _ e0 e1 (((cfg0.win 3).blk t).view.emb (ix2 e (0 : Fin 1))) e rfl rfl

theorem iblk4_apply (c : Dev nD) (t : Fin cfg0.N) (e : Fin 64) :
    (iblk m c 4 t : S64x1.Idx → EReal) (ix2 e (0 : Fin 1)) = m ((c : Thread nD τ).loc main_arg2) (ix2 e (1 : Fin 2)) := by
  obtain ⟨-, -, -, -, -, -, -, -, -, e0, e1, -⟩ := idx_facts t
  exact col_apply_of _ _ (1 : Fin 2) slices_S64x2_S64x1_0_1 (V_v4 m c) _ _ e0 e1 (((cfg0.win 4).blk t).view.emb (ix2 e (0 : Fin 1))) e rfl rfl

/-! ## What a point writes back -/

/-- Batch row `r` of point `t`'s block against the specification's summand at batch row `8t + r`. -/
theorem rowTerm_eq (c : Dev nD) (t : Fin cfg0.N) (r : Fin 8) (e : Fin 64) (p : Fin 4096) (b : Fin 64) (hb : b.val = 8 * t.val + r.val) :
    rowTerm (iblk m c 0 t) (k0_pay10 (iblk m c 1 t)) (k0_pay11 (iblk m c 2 t)) (k0_pay12 (iblk m c 3 t) (iblk m c 3 t))
        (k0_pay13 (iblk m c 4 t) (iblk m c 4 t)) r e p
      = Cert.Rbf.bump (m ((c : Thread nD τ).loc main_arg0)) (m ((c : Thread nD τ).loc main_arg1)) (m ((c : Thread nD τ).loc main_arg2)) b e p := by
  unfold rowTerm Cert.Rbf.bump Cert.Rbf.quad Cert.Rbf.term k0_pay10 k0_pay11 k0_pay12 k0_pay13
  simp only [shapeCast_self, mulf_apply]
  rw [iblk0_apply m c t (0 : Fin 3) r p b hb, iblk0_apply m c t (1 : Fin 3) r p b hb, iblk0_apply m c t (2 : Fin 3) r p b hb,
    iblk1_apply m c t e, iblk2_apply m c t e, iblk3_apply m c t e, iblk4_apply m c t e]

/-- WHAT POINT `t` WRITES BACK is block `t` of the specification. -/
theorem flushed_eq (c : Dev nD) (t : Fin cfg0.N) :
    (dats m 0 c).flushed 5 t = ((cfg0.win 5).blk t).view.read (Elt Ideal) (result m c) := by
  have hN : cfg0.N = 8 := N_0
  obtain ⟨-, -, -, -, -, -, -, -, -, -, -, e0, e1⟩ := idx_facts t
  rw [flushed5]
  refine funext fun (y : S8x64.Idx) => ?_
  obtain ⟨r, e, rfl⟩ : ∃ (r : Fin 8) (e : Fin 64), y = ix2 r e := ⟨y 0, y 1, eq_ix2 y⟩
  have ht : t.val < 8 := hN ▸ t.isLt
  have hi : ((cfg0.win 5).blk t).view.emb (ix2 r e) = (ix2 (⟨8 * t.val + r.val, by have := r.isLt; omega⟩ : Fin 64) e : S64x64.Idx) := by
    funext a; apply Fin.ext
    match a with
    | ⟨0, _⟩ => show win0_5.index t (0 : Fin 2) * 8 + 1 * r.val = 8 * t.val + r.val; omega
    | ⟨1, _⟩ => show win0_5.index t (1 : Fin 2) * 64 + 1 * e.val = e.val; omega
  show outsAt0 m c t (ix2 r e) = result m c (((cfg0.win 5).blk t).view.emb (ix2 r e))
  rw [hi]
  unfold outsAt0
  refine (out_apply c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t) (iblk m c 4 t) r e).trans ?_
  refine Eq.trans ?_ (Cert.Rbf.rbf_apply _ _ _ _ e).symm
  exact Finset.sum_congr rfl fun p _ => rowTerm_eq m c t r e p _ rfl

/-- An index of the result array is in point `t`'s block iff its row is one of `8t … 8t+7`. -/
theorem mem_blk (t : Fin cfg0.N) (i : S64x64.Idx) :
    i ∈ ((cfg0.win 5).blk t).view.set ↔ ∀ a : Fin 2, win0_5.index t a * S8x64.size a ≤ (i a).val ∧ (i a).val < win0_5.index t a * S8x64.size a + S8x64.size a := by
  show i ∈ ((View.whole main_v5).slice (win0_5.rect t)).set ↔ _
  rw [View.set_slice_whole, Rect.mem_set_unit]
  exact Iff.rfl

/-- THE ARRAY after the run is the specification: the eight points' blocks tile it. -/
theorem final (c : Dev nD) : (dats m 0 c).arrAt 5 cfg0.N = result m c :=
  (dats m 0 c).arrAt_eq_of_cover 5 (result m c) (fun t _ => flushed_eq m c t) fun i => by
    have hN : cfg0.N = 8 := N_0
    have hi0 : (i 0).val < 64 := (i 0).isLt
    have hi1 : (i 1).val < 64 := (i 1).isLt
    refine ⟨⟨(i 0).val / 8, by rw [hN]; omega⟩, flush0_5 _, ?_⟩
    obtain ⟨-, -, -, -, -, -, -, -, -, -, -, e0, e1⟩ := idx_facts ⟨(i 0).val / 8, by rw [hN]; omega⟩
    rw [mem_blk]
    intro a
    match a with
    | ⟨0, _⟩ =>
      show win0_5.index _ (0 : Fin 2) * 8 ≤ (i 0).val ∧ (i 0).val < win0_5.index _ (0 : Fin 2) * 8 + 8
      rw [e0]; show (i 0).val / 8 * 8 ≤ (i 0).val ∧ (i 0).val < (i 0).val / 8 * 8 + 8; omega
    | ⟨1, _⟩ =>
      show win0_5.index _ (1 : Fin 2) * 64 ≤ (i 1).val ∧ (i 1).val < win0_5.index _ (1 : Fin 2) * 64 + 64
      rw [e1]; omega

/-- THE KERNEL'S RUN, READ: every weakly fair execution terminates with the result array at the specification of the
    three argument arrays, which end unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.RbfValue

end
-- ==== Proof.RefRun.lean ====
/-
  The reference's @main as one straight line of host operations, and what it leaves in its result.

  @main calls three outlined functions (the sum over the last axis that skips undefined terms, and the two
  selections it and @main make); a call means its callee's body on the operands, so the line is @main's own
  operations with each callee's operations written at the call site over that call's buffers: thirty-two in all.
  The line's run ends with every buffer at the fold of the operations over the launch contents; read at the
  result buffer, the fold is one term of the three argument arrays, built here stage by stage for any float values:

    diff  x c    the centre minus the sample's first two channels, at every (row, centre, sample, channel)
    sq    x c    its square
    wts   s      the sharpness squared, at the same indices
    terms x c s  the product of the two
    rowSum t     the sum over the channel axis from zero, a term that differs from itself replaced by zero
    zsq   x      the third channel squared, likewise replaced by zero where it differs from itself
    expo  x c s  the sum of the two, at every (row, centre, sample)
    refTerm      the sum over the samples, from zero, of the exponential of minus that
-/
import proofs.«161177_j34883724378859_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The samples' first two channels. -/
def xy (x : FVec F S64x4096x3 .f32) : FVec F S64x4096x2 .f32 :=
  extractStridedSlice S64x4096x2 ![0, 0, 0] x slices_S64x4096x3_S64x4096x2_0_0_0

/-- The samples' third channel, as a matrix. -/
def zc (x : FVec F S64x4096x3 .f32) : FVec F S64x4096 .f32 :=
  shapeCast S64x4096 (extractStridedSlice S64x4096x1 ![0, 0, 2] x slices_S64x4096x3_S64x4096x1_0_0_2) shapeCasts_S64x4096x1_S64x4096

/-- A 64 × 2 table (the centres, or the squared sharpnesses) copied over every row and sample. -/
def overAll (p : FVec F S64x2 .f32) : FVec F S64x64x4096x2 .f32 :=
  broadcastInDim S64x64x4096x2 ![0, 1, 2, 3] bcast_S1x64x1x2_S64x64x4096x2_0_1_2_3
    (broadcastInDim S1x64x1x2 ![1, 3] bcast_S64x2_S1x64x1x2_1_3 p)

/-- The centre minus the sample, channel by channel. -/
def diff (x : FVec F S64x4096x3 .f32) (c : FVec F S64x2 .f32) : FVec F S64x64x4096x2 .f32 :=
  subf (overAll c)
    (broadcastInDim S64x64x4096x2 ![0, 1, 2, 3] bcast_S64x1x4096x2_S64x64x4096x2_0_1_2_3
      (broadcastInDim S64x1x4096x2 ![0, 2, 3] bcast_S64x4096x2_S64x1x4096x2_0_2_3 (xy x)))

/-- Its square. -/
def sq (x : FVec F S64x4096x3 .f32) (c : FVec F S64x2 .f32) : FVec F S64x64x4096x2 .f32 :=
  mulf (diff x c) (diff x c)

/-- The squared sharpness at every index. -/
def wts (s : FVec F S64x2 .f32) : FVec F S64x64x4096x2 .f32 := overAll (mulf s s)

/-- The weighted squared differences. -/
def terms (x : FVec F S64x4096x3 .f32) (c s : FVec F S64x2 .f32) : FVec F S64x64x4096x2 .f32 :=
  mulf (sq x c) (wts s)

/-- The sum over the channel axis, from zero, of the terms, one that differs from itself replaced by zero. -/
def rowSum (t : FVec F S64x64x4096x2 .f32) : FVec F S64x64x4096 .f32 :=
  Host.reduceAdd
    (select (cmpf .une t t) (broadcastInDim S64x64x4096x2 ![] bcast_S_S64x64x4096x2 (constant S_ .f32 0x00000000#32)) t)
    (constant S_ .f32 0x00000000#32) reducesTo_S64x64x4096x2_S64x64x4096_d3 h_S_

/-- The third channel squared, replaced by zero where the channel differs from itself. -/
def zsq (x : FVec F S64x4096x3 .f32) : FVec F S64x4096 .f32 :=
  select (cmpf .une (zc x) (zc x)) (broadcastInDim S64x4096 ![] bcast_S_S64x4096 (constant S_ .f32 0x00000000#32))
    (mulf (zc x) (zc x))

/-- The exponent at every (row, centre, sample). -/
def expo (x : FVec F S64x4096x3 .f32) (c s : FVec F S64x2 .f32) : FVec F S64x64x4096 .f32 :=
  addf (rowSum (terms x c s))
    (broadcastInDim S64x64x4096 ![0, 1, 2] bcast_S64x1x4096_S64x64x4096_0_1_2
      (broadcastInDim S64x1x4096 ![0, 2] bcast_S64x4096_S64x1x4096_0_2 (zsq x)))

/-- The result: the sum over the samples, from zero, of the exponential of minus the exponent. -/
def refTerm (x : FVec F S64x4096x3 .f32) (c s : FVec F S64x2 .f32) : FVec F S64x64 .f32 :=
  Host.reduceAdd (Host.exp (Host.negf (expo x c s))) (constant S_ .f32 0x00000000#32) reducesTo_S64x64x4096_S64x64_d2 h_S_

/-! ## The line of operations -/

/-- @main's operations in order, each call's operations at its site: thirteen of @main's own; the sum's six (the
    comparison, the zero, the selection's broadcast and select, the initial zero, the reduce); three more of
    @main's; the second selection's three (the zero at its own type, its broadcast, the select); the last seven. -/
abbrev ops : List (HloOp τ sig (Elt F)) :=
  [ unary main_arg0 main_v0 ((extractStridedSlice S64x4096x2 ![0, 0, 0] · slices_S64x4096x3_S64x4096x2_0_0_0) : (⟨S64x4096x3, .f32⟩ : BufTy).Contents (Elt F) → (⟨S64x4096x2, .f32⟩ : BufTy).Contents (Elt F)),
    unary main_arg0 main_v1 ((extractStridedSlice S64x4096x1 ![0, 0, 2] · slices_S64x4096x3_S64x4096x1_0_0_2) : (⟨S64x4096x3, .f32⟩ : BufTy).Contents (Elt F) → (⟨S64x4096x1, .f32⟩ : BufTy).Contents (Elt F)),
    reshape main_v1 main_v2 rfl shapeCasts_S64x4096x1_S64x4096,
    binary main_arg2 main_arg2 main_v3 (mulf : (⟨S64x2, .f32⟩ : BufTy).Contents (Elt F) → (⟨S64x2, .f32⟩ : BufTy).Contents (Elt F) → (⟨S64x2, .f32⟩ : BufTy).Contents (Elt F)),
    unary main_arg1 main_v4 (broadcastInDim S1x64x1x2 ![1, 3] bcast_S64x2_S1x64x1x2_1_3 : (⟨S64x2, .f32⟩ : BufTy).Contents (Elt F) → (⟨S1x64x1x2, .f32⟩ : BufTy).Contents (Elt F)),
    unary main_v0 main_v5 (broadcastInDim S64x1x4096x2 ![0, 2, 3] bcast_S64x4096x2_S64x1x4096x2_0_2_3 : (⟨S64x4096x2, .f32⟩ : BufTy).Contents (Elt F) → (⟨S64x1x4096x2, .f32⟩ : BufTy).Contents (Elt F)),
    unary main_v4 main_v6 (broadcastInDim S64x64x4096x2 ![0, 1, 2, 3] bcast_S1x64x1x2_S64x64x4096x2_0_1_2_3 : (⟨S1x64x1x2, .f32⟩ : BufTy).Contents (Elt F) → (⟨S64x64x4096x2, .f32⟩ : BufTy).Contents (Elt F)),
    unary main_v5 main_v7 (broadcastInDim S64x64x4096x2 ![0, 1, 2, 3] bcast_S64x1x4096x2_S64x64x4096x2_0_1_2_3 : (⟨S64x1x4096x2, .f32⟩ : BufTy).Contents (Elt F) → (⟨S64x64x4096x2, .f32⟩ : BufTy).Contents (Elt F)),
    binary main_v6 main_v7 main_v8 (subf : (⟨S64x64x4096x2, .f32⟩ : BufTy).Contents (Elt F) → (⟨S64x64x4096x2, .f32⟩ : BufTy).Contents (Elt F) → (⟨S64x64x4096x2, .f32⟩ : BufTy).Contents (Elt F)),
    binary main_v8 main_v8 main_v9 (mulf : (⟨S64x64x4096x2, .f32⟩ : BufTy).Contents (Elt F) → (⟨S64x64x4096x2, .f32⟩ : BufTy).Contents (Elt F) → (⟨S64x64x4096x2, .f32⟩ : BufTy).Contents (Elt F)),
    unary main_v3 main_v10 (broadcastInDim S1x64x1x2 ![1, 3] bcast_S64x2_S1x64x1x2_1_3 : (⟨S64x2, .f32⟩ : BufTy).Contents (Elt F) → (⟨S1x64x1x2, .f32⟩ : BufTy).Contents (Elt F)),
    unary main_v10 main_v11 (broadcastInDim S64x64x4096x2 ![0, 1, 2, 3] bcast_S1x64x1x2_S64x64x4096x2_0_1_2_3 : (⟨S1x64x1x2, .f32⟩ : BufTy).Contents (Elt F) → (⟨S64x64x4096x2, .f32⟩ : BufTy).Contents (Elt F)),
    binary main_v9 main_v11 main_v12 (mulf : (⟨S64x64x4096x2, .f32⟩ : BufTy).Contents (Elt F) → (⟨S64x64x4096x2, .f32⟩ : BufTy).Contents (Elt F) → (⟨S64x64x4096x2, .f32⟩ : BufTy).Contents (Elt F)),
    TRef.binary (.of main_v12 : TRef sig ⟨S64x64x4096x2, .f32⟩) (.of main_v12 : TRef sig ⟨S64x64x4096x2, .f32⟩) main_call0.v0 (cmpf .une),
    TRef.nullary main_call0.cst (constant S_ .f32 0x00000000#32),
    TRef.unary main_call0.cst main_call0.call0.v0 (broadcastInDim S64x64x4096x2 ![] bcast_S_S64x64x4096x2),
    TRef.ternary main_call0.v0 main_call0.call0.v0 (.of main_v12 : TRef sig ⟨S64x64x4096x2, .f32⟩) main_call0.call0.v1 select,
    TRef.nullary main_call0.cst_0 (constant S_ .f32 0x00000000#32),
    TRef.binary main_call0.call0.v1 main_call0.cst_0 main_call0.v2 (fun x v => Host.reduceAdd x v reducesTo_S64x64x4096x2_S64x64x4096_d3 h_S_),
    binary main_v2 main_v2 main_v14 (cmpf .une : (⟨S64x4096, .f32⟩ : BufTy).Contents (Elt F) → (⟨S64x4096, .f32⟩ : BufTy).Contents (Elt F) → (⟨S64x4096, .i1⟩ : BufTy).Contents (Elt F)),
    binary main_v2 main_v2 main_v15 (mulf : (⟨S64x4096, .f32⟩ : BufTy).Contents (Elt F) → (⟨S64x4096, .f32⟩ : BufTy).Contents (Elt F) → (⟨S64x4096, .f32⟩ : BufTy).Contents (Elt F)),
    nullary main_cst (constant S_ .f32 0x00000000#32),
    TRef.unary (.of main_cst : TRef sig ⟨S_, .f32⟩) main_call1.v0 id,
    TRef.unary main_call1.v0 main_call1.v1 (broadcastInDim S64x4096 ![] bcast_S_S64x4096),
    TRef.ternary (.of main_v14 : TRef sig ⟨S64x4096, .i1⟩) main_call1.v1 (.of main_v15 : TRef sig ⟨S64x4096, .f32⟩) main_call1.v2 select,
    unary main_v16 main_v17 (broadcastInDim S64x1x4096 ![0, 2] bcast_S64x4096_S64x1x4096_0_2 : (⟨S64x4096, .f32⟩ : BufTy).Contents (Elt F) → (⟨S64x1x4096, .f32⟩ : BufTy).Contents (Elt F)),
    unary main_v17 main_v18 (broadcastInDim S64x64x4096 ![0, 1, 2] bcast_S64x1x4096_S64x64x4096_0_1_2 : (⟨S64x1x4096, .f32⟩ : BufTy).Contents (Elt F) → (⟨S64x64x4096, .f32⟩ : BufTy).Contents (Elt F)),
    binary main_v13 main_v18 main_v19 (addf : (⟨S64x64x4096, .f32⟩ : BufTy).Contents (Elt F) → (⟨S64x64x4096, .f32⟩ : BufTy).Contents (Elt F) → (⟨S64x64x4096, .f32⟩ : BufTy).Contents (Elt F)),
    unary main_v19 main_v20 (Host.negf : (⟨S64x64x4096, .f32⟩ : BufTy).Contents (Elt F) → (⟨S64x64x4096, .f32⟩ : BufTy).Contents (Elt F)),
    unary main_v20 main_v21 (Host.exp : (⟨S64x64x4096, .f32⟩ : BufTy).Contents (Elt F) → (⟨S64x64x4096, .f32⟩ : BufTy).Contents (Elt F)),
    nullary main_cst_0 (constant S_ .f32 0x00000000#32),
    binary main_v21 main_cst_0 main_v22 ((fun x v => Host.reduceAdd x v reducesTo_S64x64x4096_S64x64_d2 h_S_) : (⟨S64x64x4096, .f32⟩ : BufTy).Contents (Elt F) → (⟨S_, .f32⟩ : BufTy).Contents (Elt F) → (⟨S64x64, .f32⟩ : BufTy).Contents (Elt F)) ]

-- thirty-two binds re-associated, three definitions unfolded under them
set_option maxRecDepth 2048 in
/-- @main is that line: the three functions' definitions unfold at their calls, the calls' buffers at their fields,
    and both sides are one chain of steps once sequencing is re-associated. -/
theorem main_eq (c : Dev nD) : main (F := F) c = seq ops := by
  simp only [main, fn_nansum.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., reshape_bufs_sub .., binary_bufs_sub .., unary_bufs_sub .., unary_bufs_sub ..,
    unary_bufs_sub .., unary_bufs_sub .., binary_bufs_sub .., binary_bufs_sub .., unary_bufs_sub .., unary_bufs_sub ..,
    binary_bufs_sub ..,
    binary_bufs_sub .., nullary_bufs_sub .., unary_bufs_sub .., ternary_bufs_sub .., nullary_bufs_sub .., binary_bufs_sub ..,
    binary_bufs_sub .., binary_bufs_sub .., nullary_bufs_sub ..,
    unary_bufs_sub .., unary_bufs_sub .., ternary_bufs_sub ..,
    unary_bufs_sub .., unary_bufs_sub .., binary_bufs_sub .., unary_bufs_sub .., unary_bufs_sub .., nullary_bufs_sub ..,
    binary_bufs_sub ..⟩

/-- The whole line run: every buffer ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Read at the result buffer the fold is the composed term of the three argument arrays, and at the argument
    buffers what was there: no operation writes them. For any float values. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v22).trans (by after_results_simp; rfl),
      (h c main_arg0).trans (by after_results_simp),
      (h c main_arg1).trans (by after_results_simp),
      (h c main_arg2).trans (by after_results_simp)⟩)
    (run_after m ρ)

end Cert.ReferenceIdeal.RefValue

end
-- ==== Proof.RefValue.lean ====
/-
  The reference's composed term, read at an index at the ideal values, is the radial-basis sum.

  At the ideal values a float is an extended real and every operation exact. A comparison "a differs from a" is
  the bit 0, so each selection between zero and a value on that bit is the value; the zero word is the extended
  real 0; a sum over one axis from an initial value is the initial value plus the sum over that axis's
  coordinates. Each layout operation read at an index given by coordinates is its operand at one index:
  a broadcast drops the coordinates of the axes it adds, a slice shifts one coordinate by its offset, and the
  reshape of [64, 4096, 1] to [64, 4096] keeps the row-major position.  So at (b, e, n) the exponent is
  0 + (t₀ + t₁) + x₂ · x₂ with tₖ = (cₖ - xₖ) · (cₖ - xₖ) · (sₖ · sₖ), and the result at (b, e) is
  0 + the sum over n of exp of minus that. The two zeros go by 0 + a = a, which holds for every extended real.
-/
import proofs.«161177_j34883724378859_2_alg».proof.Proof.RefRun
import proofs.«161177_j34883724378859_2_alg».proof.Proof.RbfSpec
import Idealize.ShloMosaic.Lib.IdealHost
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.ValueIdx

/-! ## The selections -/

/-- No extended real differs from itself. -/
theorem une_self (a : Ideal .f32) : FloatOps.cmpf .une a a = 0#1 := by
  rw [Ideal.cmpf_def]
  simp [Ideal.cmp]

/-- A selection on "t differs from itself" takes its last operand at every index. -/
theorem sel_une {s : Shape} (t z w : FVec Ideal s .f32) (i : s.Idx) : select (cmpf .une t t) z w i = w i := by
  rw [select_apply, cmpf_apply, une_self, select_zero]

/-! ## The layout operations at an index -/

/-- A 64 × 2 table copied over every row and sample reads the table at (centre, channel). -/
theorem overAll_apply (p : FVec Ideal S64x2 .f32) (b e : Fin 64) (n : Fin 4096) (k : Fin 2) :
    overAll (F := Ideal) p (ix4 b e n k) = p (ix2 e k) := by
  unfold overAll
  refine (broadcastInDim_apply _ _ _ (ix4 b e n k) (ix4 (0 : Fin 1) e (0 : Fin 1) k) (fun a => ?_)).trans ?_
  · match a with
    | ⟨0, _⟩ => rfl
    | ⟨1, _⟩ => rfl
    | ⟨2, _⟩ => rfl
    | ⟨3, _⟩ => rfl
  · refine broadcastInDim_apply _ _ _ (ix4 (0 : Fin 1) e (0 : Fin 1) k) (ix2 e k) (fun a => ?_)
    match a with
    | ⟨0, _⟩ => rfl
    | ⟨1, _⟩ => rfl

/-- The first two channels read the sample at the same channel. -/
theorem xy_apply (x : FVec Ideal S64x4096x3 .f32) (b : Fin 64) (n : Fin 4096) (k : Fin 2) (k3 : Fin 3) (hk : k3.val = k.val) :
    xy (F := Ideal) x (ix3 b n k) = x (ix3 b n k3) := by
  unfold xy
  refine extractStridedSlice_apply _ _ _ (ix3 b n k) (ix3 b n k3) (fun a => ?_)
  match a with
  | ⟨0, _⟩ => exact (Nat.zero_add _).symm
  | ⟨1, _⟩ => exact (Nat.zero_add _).symm
  | ⟨2, _⟩ => exact hk.trans (Nat.zero_add _).symm

/-- The samples' channels copied over every centre read the sample of that row. -/
theorem xyAll_apply (x : FVec Ideal S64x4096x3 .f32) (b e : Fin 64) (n : Fin 4096) (k : Fin 2) (k3 : Fin 3) (hk : k3.val = k.val) :
    broadcastInDim S64x64x4096x2 ![0, 1, 2, 3] bcast_S64x1x4096x2_S64x64x4096x2_0_1_2_3
        (broadcastInDim S64x1x4096x2 ![0, 2, 3] bcast_S64x4096x2_S64x1x4096x2_0_2_3 (xy (F := Ideal) x)) (ix4 b e n k)
      = x (ix3 b n k3) := by
  refine (broadcastInDim_apply _ _ _ (ix4 b e n k) (ix4 b (0 : Fin 1) n k) (fun a => ?_)).trans ?_
  · match a with
    | ⟨0, _⟩ => rfl
    | ⟨1, _⟩ => rfl
    | ⟨2, _⟩ => rfl
    | ⟨3, _⟩ => rfl
  · refine (broadcastInDim_apply _ _ _ (ix4 b (0 : Fin 1) n k) (ix3 b n k) (fun a => ?_)).trans (xy_apply x b n k k3 hk)
    match a with
    | ⟨0, _⟩ => rfl
    | ⟨1, _⟩ => rfl
    | ⟨2, _⟩ => rfl

/-- The third channel, as a matrix, reads the sample's third channel. -/
theorem zc_apply (x : FVec Ideal S64x4096x3 .f32) (b : Fin 64) (n : Fin 4096) :
    zc (F := Ideal) x (ix2 b n) = x (ix3 b n (2 : Fin 3)) := by
  unfold zc
  refine (shapeCast_apply _ _ (ix2 b n) (ix3 b n (0 : Fin 1)) ?_).trans ?_
  · rw [Shape.rowMajor_val_three, Shape.rowMajor_val_two]
    show (b.val * 4096 + n.val) * 1 + 0 = b.val * 4096 + n.val
    omega
  · refine extractStridedSlice_apply _ _ _ (ix3 b n (0 : Fin 1)) (ix3 b n (2 : Fin 3)) (fun a => ?_)
    match a with
    | ⟨0, _⟩ => exact (Nat.zero_add _).symm
    | ⟨1, _⟩ => exact (Nat.zero_add _).symm
    | ⟨2, _⟩ => rfl

/-- A 64 × 4096 matrix copied over every centre reads the matrix at (row, sample). -/
theorem zAll_apply (z : FVec Ideal S64x4096 .f32) (b e : Fin 64) (n : Fin 4096) :
    broadcastInDim S64x64x4096 ![0, 1, 2] bcast_S64x1x4096_S64x64x4096_0_1_2
        (broadcastInDim S64x1x4096 ![0, 2] bcast_S64x4096_S64x1x4096_0_2 z) (ix3 b e n)
      = z (ix2 b n) := by
  refine (broadcastInDim_apply _ _ _ (ix3 b e n) (ix3 b (0 : Fin 1) n) (fun a => ?_)).trans ?_
  · match a with
    | ⟨0, _⟩ => rfl
    | ⟨1, _⟩ => rfl
    | ⟨2, _⟩ => rfl
  · refine broadcastInDim_apply _ _ _ (ix3 b (0 : Fin 1) n) (ix2 b n) (fun a => ?_)
    match a with
    | ⟨0, _⟩ => rfl
    | ⟨1, _⟩ => rfl

/-! ## The stages at an index -/

/-- One weighted squared difference. -/
theorem terms_apply (x : FVec Ideal S64x4096x3 .f32) (c s : FVec Ideal S64x2 .f32) (b e : Fin 64) (n : Fin 4096)
    (k : Fin 2) (k3 : Fin 3) (hk : k3.val = k.val) :
    terms (F := Ideal) x c s (ix4 b e n k) = Cert.Rbf.term (c (ix2 e k)) (x (ix3 b n k3)) (s (ix2 e k)) := by
  unfold terms sq wts diff Cert.Rbf.term
  simp only [mulf_apply, subf_apply, overAll_apply, xyAll_apply x b e n k k3 hk]

/-- The third channel squared. -/
theorem zsq_apply (x : FVec Ideal S64x4096x3 .f32) (b : Fin 64) (n : Fin 4096) :
    zsq (F := Ideal) x (ix2 b n) = x (ix3 b n (2 : Fin 3)) * x (ix3 b n (2 : Fin 3)) := by
  unfold zsq
  rw [sel_une, mulf_apply, zc_apply]

/-- The sum over the two channels, from zero. -/
theorem rowSum_apply (t : FVec Ideal S64x64x4096x2 .f32) (b e : Fin 64) (n : Fin 4096) :
    rowSum (F := Ideal) t (ix3 b e n) = 0 + (t (ix4 b e n (0 : Fin 2)) + t (ix4 b e n (1 : Fin 2))) := by
  have hred : S64x64x4096x2.Reduces [3] S64x64x4096 := by decide
  have l0 : hred.lift (ix3 b e n) (0 : Fin 2) = ix4 b e n (0 : Fin 2) := by
    funext a
    apply Fin.ext
    match a with
    | ⟨0, _⟩ => rfl
    | ⟨1, _⟩ => rfl
    | ⟨2, _⟩ => rfl
    | ⟨3, _⟩ => rfl
  have l1 : hred.lift (ix3 b e n) (1 : Fin 2) = ix4 b e n (1 : Fin 2) := by
    funext a
    apply Fin.ext
    match a with
    | ⟨0, _⟩ => rfl
    | ⟨1, _⟩ => rfl
    | ⟨2, _⟩ => rfl
    | ⟨3, _⟩ => rfl
  unfold rowSum
  rw [hostReduceAdd_apply]
  refine (Ideal.hostReduceAdd_single reducesTo_S64x64x4096x2_S64x64x4096_d3 hred _ _ (ix3 b e n)).trans ?_
  rw [constant_apply, Ideal.ofBits_zero_f32]
  refine congrArg (fun y : EReal => 0 + y) ?_
  refine (Fin.sum_univ_two _).trans ?_
  show select _ _ t (hred.lift (ix3 b e n) (0 : Fin 2)) + select _ _ t (hred.lift (ix3 b e n) (1 : Fin 2)) = _
  rw [l0, l1, sel_une, sel_une]

/-- The exponent at (row, centre, sample). -/
theorem expo_apply (x : FVec Ideal S64x4096x3 .f32) (c s : FVec Ideal S64x2 .f32) (b e : Fin 64) (n : Fin 4096) :
    expo (F := Ideal) x c s (ix3 b e n) = Cert.Rbf.quad x c s b e n := by
  unfold expo Cert.Rbf.quad
  rw [addf_apply, rowSum_apply, zAll_apply, zsq_apply, terms_apply x c s b e n (0 : Fin 2) (0 : Fin 3) rfl,
    terms_apply x c s b e n (1 : Fin 2) (1 : Fin 3) rfl, zero_add]

/-! ## The result -/

/-- The composed term at the ideal values is the radial-basis sum. -/
theorem refTerm_eq (x : FVec Ideal S64x4096x3 .f32) (c s : FVec Ideal S64x2 .f32) :
    refTerm (F := Ideal) x c s = Cert.Rbf.rbf x c s := by
  have hred : S64x64x4096.Reduces [2] S64x64 := by decide
  funext i
  obtain ⟨b, e, rfl⟩ : ∃ (b : Fin 64) (e : Fin 64), i = ix2 b e := ⟨i 0, i 1, eq_ix2 i⟩
  rw [Cert.Rbf.rbf_apply]
  unfold refTerm
  rw [hostReduceAdd_apply]
  refine (Ideal.hostReduceAdd_single reducesTo_S64x64x4096_S64x64_d2 hred _ _ (ix2 b e)).trans ?_
  rw [constant_apply, Ideal.ofBits_zero_f32, zero_add]
  refine Finset.sum_congr rfl fun (n : Fin 4096) _ => ?_
  have hl : hred.lift (ix2 b e) n = ix3 b e n := by
    funext a
    apply Fin.ext
    match a with
    | ⟨0, _⟩ => rfl
    | ⟨1, _⟩ => rfl
    | ⟨2, _⟩ => rfl
  rw [hl]
  show FloatOps.hostUnary .exp (FloatOps.hostNegf (expo (F := Ideal) x c s (ix3 b e n))) = _
  rw [Ideal.hostUnary_exp_def, Ideal.hostNegf_def, Ideal.negf_def, expo_apply]
  rfl

/-- At the ideal values, from any memory with zero counters: every weakly fair execution of the reference
    terminates with its result at the radial-basis sum of its three argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
          = Cert.Rbf.rbf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (refTerm_eq _ _ _), (h c).2⟩) (run_term (F := Ideal) m ρ)

end Cert.ReferenceIdeal.RefValue

end
-- ==== Proof.lean ====
/- The proof of `Cert.Claim`: a radial-basis sum computed by a tiled kernel against its plain reference.

   Both programs compute, for batch row `b` and centre `e`, the sum over the 4096 samples `n` of
   `exp (-((c_e0 - x_bn0)² s_e0² + (c_e1 - x_bn1)² s_e1² + x_bn2²))` (Proof/RbfSpec.lean states it on the extended reals).
   The kernel takes eight batch rows per grid point and sums each row's samples in eight chunks of 512, carried in a loop;
   the reference sums the whole sample axis at once. On the extended reals a sum may be split and regrouped freely, both
   programs group the products the same way, and the "is it a NaN" guards of both compare a value with itself, which is
   never different: so the two results are one function of the arguments, and no finiteness is used.

   Proof/ChunkSum.lean   one trip of a row's loop, read at a centre
   Proof/RowLoop.lean    eight trips are the sum over the 4096 samples
   Proof/Trips.lean      each loop's trip as the trip function of its loads
   Proof/Rows.lean       the eight loops, by the two above
   Proof/Block.lean      the block the body stores, read at an entry
   Proof/Final.lean      the blocks tile the result array: the kernel's run ends at the specification
   Proof/RefRun.lean     the reference's run as one composed term
   Proof/RefValue.lean   that term is the specification
   Proof/LibKeepdims.lean, Proof/LibRowBlocks.lean   general lemmas on layouts and tiled sums -/
import proofs.«161177_j34883724378859_2_alg».proof.Defs
import proofs.«161177_j34883724378859_2_alg».proof.Proof.Gen.Kernel
import proofs.«161177_j34883724378859_2_alg».proof.Proof.Gen.Kernel.Skeleton
import proofs.«161177_j34883724378859_2_alg».proof.Proof.Gen.Kernel.Loops
import proofs.«161177_j34883724378859_2_alg».proof.Proof.Gen.Kernel.Launch
import proofs.«161177_j34883724378859_2_alg».proof.Proof.Gen.Kernel.Points
import proofs.«161177_j34883724378859_2_alg».proof.Proof.Gen.Kernel.Frame
import proofs.«161177_j34883724378859_2_alg».proof.Proof.Gen.KernelIdeal
import proofs.«161177_j34883724378859_2_alg».proof.Proof.Gen.KernelIdeal.Skeleton
import proofs.«161177_j34883724378859_2_alg».proof.Proof.Gen.KernelIdeal.Loops
import proofs.«161177_j34883724378859_2_alg».proof.Proof.Gen.KernelIdeal.Launch
import proofs.«161177_j34883724378859_2_alg».proof.Proof.Gen.KernelIdeal.Points
import proofs.«161177_j34883724378859_2_alg».proof.Proof.Gen.KernelIdeal.Frame
import proofs.«161177_j34883724378859_2_alg».proof.Proof.Gen.KernelIdeal.Value
import proofs.«161177_j34883724378859_2_alg».proof.Proof.Gen.ReferenceIdeal
import proofs.«161177_j34883724378859_2_alg».proof.Proof.Gen.Pre_finite_inputs
import proofs.«161177_j34883724378859_2_alg».proof.Proof.Final
import proofs.«161177_j34883724378859_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- On the extended reals the kernel's result array ends at the specification of its arguments and the reference's at
    the specification of its own; the arguments agree. -/
theorem algebraic : Cert.algebraic_KernelIdeal_ReferenceIdeal := by
  intro m ρ m' ρ' _ hagree
  refine ⟨fun c => Cert.KernelIdeal.RbfValue.result m c, Cert.KernelIdeal.RbfValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
